-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x1 : Shape := ⟨2, ![8192, 1]⟩
abbrev S2048x256 : Shape := ⟨2, ![2048, 256]⟩
abbrev S1024x256 : Shape := ⟨2, ![1024, 256]⟩
abbrev S2048x1 : Shape := ⟨2, ![2048, 1]⟩
abbrev S256x1024 : Shape := ⟨2, ![256, 1024]⟩
abbrev S2048x1024 : Shape := ⟨2, ![2048, 1024]⟩
abbrev S2048 : Shape := ⟨1, ![2048]⟩
abbrev S8192 : Shape := ⟨1, ![8192]⟩
abbrev S_ : Shape := ⟨0, ![]⟩

abbrev nBuf : Space → Nat
  | .hbm => 32
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x1, .f32⟩
  | .hbm, ⟨4, _⟩ => ⟨S8192x1, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  transposes_S1024x256_p1_0_S256x1024 : S1024x256.Transposes [1, 0] S256x1024
  reduces_S2048x1024_S2048 : S2048x1024.Reduces [1] S2048
  shapeCasts_S2048_S2048x1 : S2048.ShapeCasts S2048x1
  broadcasts_S2048x1_S2048x1024 : S2048x1.Broadcasts S2048x1024
  natLt_1_32 : 1 < 32
  shapeCasts_S8192x1_S8192 : S8192x1.ShapeCasts S8192
  reducesTo_S8192_S_d0 : S8192.ReducesTo [0] S_
  h_S_ : 0 < S_.numel
  bcast_S_S8192 : S_.BroadcastsInDim S8192 (![] : Fin 0 → Fin S8192.rank)
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x8192, .i32⟩
  | .hbm, ⟨18, _⟩ => ⟨S_, .i32⟩
  | .hbm, ⟨19, _⟩ => ⟨S8192, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_call1_cst : Ref sig .tc := ⟨.hbm, 37, rfl⟩
abbrev main_call1_v0 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  natLt_1_32 : 1 < 32
  reducesTo_S8192_S_d0 : S8192.ReducesTo [0] S_
  bcast_S_S8192 : S_.BroadcastsInDim S8192 (![] : Fin 0 → Fin S8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KPieces.lean ====
/-
  What each control case of the row-statistics kernel leaves behind, as the body's own pure terms.

  The body keeps three [2048, 1] columns in scratch across the eight column tiles of a row block: the running maximum,
  the running sum, and the running count of entries equal to the running maximum. At a row block's first tile (case A)
  it first stores the starting columns (`-∞`, `0`, `0`) and reads them back; at the other tiles (cases B and C) it reads
  what the tile before left. At the last tile (case C) it also stores the three output columns: the maximum, the sum
  minus count times maximum, and 8192 minus the count. Each lemma reads one buffer's covering store back as the
  payload that was stored, with every load replaced by the contents it reads.
-/
import proofs.«124568_j35905926594960_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem sA0 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : cond0_0 i) (hc1 : ¬cond0_1 i)
    (x0 : Vec F S2048x256 .f32) (x1 : Vec F S1024x256 .f32) :
    sout0_A_0 c i a2 h2 a3 h3 a4 h4 a5 h5 a6 h6 a7 h7 a8 h8 a9 h9 hc0 hc1 x0 x1 = k0_pay1 (k0_pay11 x0 x1 k0_pay5) := by
  unfold sout0_A_0
  rw [View.read_writes_eq_canon _ _ _ (scover0_A_0 c i a2 h2 a3 h3 a4 h4 a5 h5 a6 h6 a7 h7 a8 h8 a9 h9 hc0 hc1 x0 x1)]
  unfold kernelRun0_A
  dsimp only
  sl_unfold_words
  rw [View.canon_cons_unit_zero (S := S2048x1) hz]
  simp only [View.readCov_unit_zero (S := S2048x1) _ hz, View.readAt_eq_ld, h2.read_unread, h3.read_unread, View.ld_unit_zero (S := S2048x256) hz, View.ld_unit_zero (S := S1024x256) hz]

theorem sA1 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : cond0_0 i) (hc1 : ¬cond0_1 i)
    (x0 : Vec F S2048x256 .f32) (x1 : Vec F S1024x256 .f32) :
    sout0_A_1 c i a2 h2 a3 h3 a4 h4 a5 h5 a6 h6 a7 h7 a8 h8 a9 h9 hc0 hc1 x0 x1 = k0_pay13 x0 x1 k0_pay6 := by
  unfold sout0_A_1
  rw [View.read_writes_eq_canon _ _ _ (scover0_A_1 c i a2 h2 a3 h3 a4 h4 a5 h5 a6 h6 a7 h7 a8 h8 a9 h9 hc0 hc1 x0 x1)]
  unfold kernelRun0_A
  dsimp only
  sl_unfold_words
  rw [View.canon_cons_unit_zero (S := S2048x1) hz]
  simp only [View.readCov_unit_zero (S := S2048x1) _ hz, View.readAt_eq_ld, h2.read_unread, h3.read_unread, View.ld_unit_zero (S := S2048x256) hz, View.ld_unit_zero (S := S1024x256) hz]

theorem sA2 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : cond0_0 i) (hc1 : ¬cond0_1 i)
    (x0 : Vec F S2048x256 .f32) (x1 : Vec F S1024x256 .f32) :
    sout0_A_2 c i a2 h2 a3 h3 a4 h4 a5 h5 a6 h6 a7 h7 a8 h8 a9 h9 hc0 hc1 x0 x1 = k0_pay2 (k0_pay12 x0 x1 k0_pay5 k0_pay7) := by
  unfold sout0_A_2
  rw [View.read_writes_eq_canon _ _ _ (scover0_A_2 c i a2 h2 a3 h3 a4 h4 a5 h5 a6 h6 a7 h7 a8 h8 a9 h9 hc0 hc1 x0 x1)]
  unfold kernelRun0_A
  dsimp only
  sl_unfold_words
  rw [View.canon_cons_unit_zero (S := S2048x1) hz]
  simp only [View.readCov_unit_zero (S := S2048x1) _ hz, View.readAt_eq_ld, h2.read_unread, h3.read_unread, View.ld_unit_zero (S := S2048x256) hz, View.ld_unit_zero (S := S1024x256) hz]

theorem sB0 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : ¬cond0_1 i)
    (x0 : Vec F S2048x256 .f32) (x1 : Vec F S1024x256 .f32) (xs0 xs1 xs2 : Vec F S2048x1 .f32) :
    sout0_B_0 c i a2 h2 a3 h3 a4 h4 a5 h5 a6 h6 a7 h7 a8 h8 a9 h9 hc0 hc1 x0 x1 xs0 xs1 xs2 = k0_pay1 (k0_pay11 x0 x1 xs0) := by
  unfold sout0_B_0
  rw [View.read_writes_eq_canon _ _ _ (scover0_B_0 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz]
  simp only [View.readAt_eq_ld, h2.read_unread, h3.read_unread, h7.read_unread, h8.read_unread, h9.read_unread, View.ld_unit_zero (S := S2048x256) hz, View.ld_unit_zero (S := S1024x256) hz, View.ld_unit_zero (S := S2048x1) hz]

theorem sB1 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : ¬cond0_1 i)
    (x0 : Vec F S2048x256 .f32) (x1 : Vec F S1024x256 .f32) (xs0 xs1 xs2 : Vec F S2048x1 .f32) :
    sout0_B_1 c i a2 h2 a3 h3 a4 h4 a5 h5 a6 h6 a7 h7 a8 h8 a9 h9 hc0 hc1 x0 x1 xs0 xs1 xs2 = k0_pay13 x0 x1 xs1 := by
  unfold sout0_B_1
  rw [View.read_writes_eq_canon _ _ _ (scover0_B_1 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz]
  simp only [View.readAt_eq_ld, h2.read_unread, h3.read_unread, h7.read_unread, h8.read_unread, h9.read_unread, View.ld_unit_zero (S := S2048x256) hz, View.ld_unit_zero (S := S1024x256) hz, View.ld_unit_zero (S := S2048x1) hz]

theorem sB2 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : ¬cond0_1 i)
    (x0 : Vec F S2048x256 .f32) (x1 : Vec F S1024x256 .f32) (xs0 xs1 xs2 : Vec F S2048x1 .f32) :
    sout0_B_2 c i a2 h2 a3 h3 a4 h4 a5 h5 a6 h6 a7 h7 a8 h8 a9 h9 hc0 hc1 x0 x1 xs0 xs1 xs2 = k0_pay2 (k0_pay12 x0 x1 xs0 xs2) := by
  unfold sout0_B_2
  rw [View.read_writes_eq_canon _ _ _ (scover0_B_2 c i a2 h2 a3 h3 a4 h4 a5 h5 a6 h6 a7 h7 a8 h8 a9 h9 hc0 hc1 x0 x1 xs0 xs1 xs2)]
  unfold kernelRun0_B
  dsimp only
  sl_unfold_words
  rw [View.canon_unit_zero hz]
  simp only [View.readAt_eq_ld, h2.read_unread, h3.read_unread, h7.read_unread, h8.read_unread, h9.read_unread, View.ld_unit_zero (S := S2048x256) hz, View.ld_unit_zero (S := S1024x256) hz, View.ld_unit_zero (S := S2048x1) hz]

theorem sC0 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : cond0_1 i)
    (x0 : Vec F S2048x256 .f32) (x1 : Vec F S1024x256 .f32) (xs0 xs1 xs2 : Vec F S2048x1 .f32) :
    sout0_C_0 c i a2 h2 a3 h3 a4 h4 a5 h5 a6 h6 a7 h7 a8 h8 a9 h9 hc0 hc1 x0 x1 xs0 xs1 xs2 = k0_pay1 (k0_pay11 x0 x1 xs0) := by
  unfold sout0_C_0
  rw [View.read_writes_eq_canon _ _ _ (scover0_C_0 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz]
  simp only [View.readCov_unit_zero (S := S2048x1) _ hz, View.readAt_eq_ld, h2.read_unread, h3.read_unread, h7.read_unread, h8.read_unread, h9.read_unread, View.ld_unit_zero (S := S2048x256) hz, View.ld_unit_zero (S := S1024x256) hz, View.ld_unit_zero (S := S2048x1) hz]

theorem sC1 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : cond0_1 i)
    (x0 : Vec F S2048x256 .f32) (x1 : Vec F S1024x256 .f32) (xs0 xs1 xs2 : Vec F S2048x1 .f32) :
    sout0_C_1 c i a2 h2 a3 h3 a4 h4 a5 h5 a6 h6 a7 h7 a8 h8 a9 h9 hc0 hc1 x0 x1 xs0 xs1 xs2 = k0_pay13 x0 x1 xs1 := by
  unfold sout0_C_1
  rw [View.read_writes_eq_canon _ _ _ (scover0_C_1 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz]
  simp only [View.readCov_unit_zero (S := S2048x1) _ hz, View.readAt_eq_ld, h2.read_unread, h3.read_unread, h7.read_unread, h8.read_unread, h9.read_unread, View.ld_unit_zero (S := S2048x256) hz, View.ld_unit_zero (S := S1024x256) hz, View.ld_unit_zero (S := S2048x1) hz]

theorem sC2 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : cond0_1 i)
    (x0 : Vec F S2048x256 .f32) (x1 : Vec F S1024x256 .f32) (xs0 xs1 xs2 : Vec F S2048x1 .f32) :
    sout0_C_2 c i a2 h2 a3 h3 a4 h4 a5 h5 a6 h6 a7 h7 a8 h8 a9 h9 hc0 hc1 x0 x1 xs0 xs1 xs2 = k0_pay2 (k0_pay12 x0 x1 xs0 xs2) := by
  unfold sout0_C_2
  rw [View.read_writes_eq_canon _ _ _ (scover0_C_2 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz]
  simp only [View.readCov_unit_zero (S := S2048x1) _ hz, View.readAt_eq_ld, h2.read_unread, h3.read_unread, h7.read_unread, h8.read_unread, h9.read_unread, View.ld_unit_zero (S := S2048x256) hz, View.ld_unit_zero (S := S1024x256) hz, View.ld_unit_zero (S := S2048x1) hz]

theorem oC2 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : cond0_1 i)
    (x0 : Vec F S2048x256 .f32) (x1 : Vec F S1024x256 .f32) (xs0 xs1 xs2 : Vec F S2048x1 .f32) :
    out0_C_2 c i a2 h2 a3 h3 a4 h4 a5 h5 a6 h6 a7 h7 a8 h8 a9 h9 hc0 hc1 x0 x1 xs0 xs1 xs2 = k0_pay1 (k0_pay11 x0 x1 xs0) := by
  unfold out0_C_2
  rw [View.read_writes_eq_canon _ _ _ (cover0_C_2 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz]
  simp only [View.readCov_unit_zero (S := S2048x1) _ hz, View.readAt_eq_ld, h2.read_unread, h3.read_unread, h7.read_unread, h8.read_unread, h9.read_unread, View.ld_unit_zero (S := S2048x256) hz, View.ld_unit_zero (S := S1024x256) hz, View.ld_unit_zero (S := S2048x1) hz]

theorem oC3 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : cond0_1 i)
    (x0 : Vec F S2048x256 .f32) (x1 : Vec F S1024x256 .f32) (xs0 xs1 xs2 : Vec F S2048x1 .f32) :
    out0_C_3 c i a2 h2 a3 h3 a4 h4 a5 h5 a6 h6 a7 h7 a8 h8 a9 h9 hc0 hc1 x0 x1 xs0 xs1 xs2 = k0_pay3 (k0_pay13 x0 x1 xs1) (k0_pay2 (k0_pay12 x0 x1 xs0 xs2)) (k0_pay1 (k0_pay11 x0 x1 xs0)) := by
  unfold out0_C_3
  rw [View.read_writes_eq_canon _ _ _ (cover0_C_3 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz]
  simp only [View.readCov_unit_zero (S := S2048x1) _ hz, View.readAt_eq_ld, h2.read_unread, h3.read_unread, h7.read_unread, h8.read_unread, h9.read_unread, View.ld_unit_zero (S := S2048x256) hz, View.ld_unit_zero (S := S1024x256) hz, View.ld_unit_zero (S := S2048x1) hz]

theorem oC4 (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x1 .f32) (h5 : a5.IsWhole) (a6 : Memref sig .tc .vmem S2048x1 .f32) (h6 : a6.IsWhole) (a7 : Memref sig .tc .vmem S2048x1 .f32) (h7 : a7.IsWhole) (a8 : Memref sig .tc .vmem S2048x1 .f32) (h8 : a8.IsWhole) (a9 : Memref sig .tc .vmem S2048x1 .f32) (h9 : a9.IsWhole) (hc0 : ¬cond0_0 i) (hc1 : cond0_1 i)
    (x0 : Vec F S2048x256 .f32) (x1 : Vec F S1024x256 .f32) (xs0 xs1 xs2 : Vec F S2048x1 .f32) :
    out0_C_4 c i a2 h2 a3 h3 a4 h4 a5 h5 a6 h6 a7 h7 a8 h8 a9 h9 hc0 hc1 x0 x1 xs0 xs1 xs2 = k0_pay4 (k0_pay2 (k0_pay12 x0 x1 xs0 xs2)) := by
  unfold out0_C_4
  rw [View.read_writes_eq_canon _ _ _ (cover0_C_4 c i a2 h2 a3 h3 a4 h4 a5 h5 a6 h6 a7 h7 a8 h8 a9 h9 hc0 hc1 x0 x1 xs0 xs1 xs2)]
  unfold kernelRun0_C
  dsimp only
  sl_unfold_words
  rw [View.canon_unit_zero hz]
  simp only [View.readCov_unit_zero (S := S2048x1) _ hz, View.readAt_eq_ld, h2.read_unread, h3.read_unread, h7.read_unread, h8.read_unread, h9.read_unread, View.ld_unit_zero (S := S2048x256) hz, View.ld_unit_zero (S := S1024x256) hz, View.ld_unit_zero (S := S2048x1) hz]

end Cert.KernelIdeal.Pieces
end
-- ==== Proof.KAccum.lean ====
/-
  The three scratch columns of the row-statistics kernel, point by point, as a recurrence of pure terms.

  Over the 32 grid points (four row blocks times eight column tiles, the tile index fastest) the scratch columns after
  point `t` are `stepV` of the point's two input blocks applied to the columns the point before left — or, at the first
  tile of a row block (`t % 8 = 0`), to the starting columns `startV`. At the last tile of a row block (`t % 8 = 7`) the
  three output blocks are `finV` of the scratch columns just computed.
-/
import proofs.«124568_j35905926594960_1_alg».proof.Proof.KPieces

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]

/-- Three [2048, 1] columns: running maximum, running sum, running count. -/
abbrev Cols (F : FTy → Type) [FloatOps F] : Type := Vec F S2048x1 .f32 × Vec F S2048x1 .f32 × Vec F S2048x1 .f32

/-- One tile absorbed: the new maximum, sum and count columns from the old ones and the point's two input blocks. -/
def stepV (x0 : Vec F S2048x256 .f32) (x1 : Vec F S1024x256 .f32) (s : Cols F) : Cols F :=
  (k0_pay1 (k0_pay11 x0 x1 s.1), k0_pay13 x0 x1 s.2.1, k0_pay2 (k0_pay12 x0 x1 s.1 s.2.2))

/-- The starting columns a row block's first tile stores: `-∞`, `0`, `0`. -/
def startV : Cols F := (k0_pay5, k0_pay6, k0_pay7)

/-- The three output blocks from the final scratch columns: the maximum, sum minus count times maximum, 8192 minus count. -/
def finV (s : Cols F) : Cols F := (s.1, k0_pay3 s.2.1 s.2.2 s.1, k0_pay4 s.2.2)

variable (m : (ℓ : Loc nD τ sig) → Buf (Elt F) ℓ)

/-- The scratch columns after point `t`. -/
def scr (c : Dev nD) (n : ℕ) (hn : n < cfg0.N) : Cols F := (outsAt0 m c n hn).2.2.2

/-- The last three components of a six-tuple, and the first three. -/
theorem last3 {α β γ δ ε ζ : Type} (a : α) (b : β) (c : γ) (d : δ) (e : ε) (g : ζ) : (a, b, c, d, e, g).2.2.2 = (d, e, g) := rfl
theorem first3 {α β γ δ ε ζ : Type} (a : α) (b : β) (c : γ) (d : δ) (e : ε) (g : ζ) :
    ((a, b, c, d, e, g).1, (a, b, c, d, e, g).2.1, (a, b, c, d, e, g).2.2.1) = (a, b, c) := rfl

/-- At a row block's first tile the columns restart. -/
theorem scr_first (c : Dev nD) (t : Fin cfg0.N) (h0 : t.val % 8 = 0) :
    scr m c t.val t.isLt = stepV (iblk m c 0 t) (iblk m c 1 t) startV := by
  have h1 : ¬t.val % 8 = 7 := by omega
  have hX : scr m c t.val t.isLt = (outsAt0 m c t.val t.isLt).2.2.2 := rfl
  rw [outsAt0_A m c t h0 h1, last3] at hX
  rw [hX, sA0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sA1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sA2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]
  rfl

/-- At every other tile they continue from the point before. -/
theorem scr_next (c : Dev nD) (t : Fin cfg0.N) (h0 : ¬t.val % 8 = 0) :
    scr m c t.val t.isLt = stepV (iblk m c 0 t) (iblk m c 1 t) (scr m c (t.val - 1) (Nat.lt_of_le_of_lt (Nat.sub_le _ _) t.isLt)) := by
  have hX : scr m c t.val t.isLt = (outsAt0 m c t.val t.isLt).2.2.2 := rfl
  by_cases h1 : t.val % 8 = 7
  · rw [outsAt0_C m c t h0 h1, last3] at hX
    rw [hX, sC0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sC1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sC2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    rfl
  · rw [outsAt0_B m c t h0 h1, last3] at hX
    rw [hX, sB0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sB1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sB2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    rfl

/-- At a row block's last tile the output blocks are read off the columns just computed. -/
theorem outs_last (c : Dev nD) (t : Fin cfg0.N) (h1 : t.val % 8 = 7) :
    ((outsAt0 m c t.val t.isLt).1, (outsAt0 m c t.val t.isLt).2.1, (outsAt0 m c t.val t.isLt).2.2.1)
      = finV (scr m c t.val t.isLt) := by
  have h0 : ¬t.val % 8 = 0 := by omega
  rw [scr_next m c t h0]
  generalize hY : ((outsAt0 m c t.val t.isLt).1, (outsAt0 m c t.val t.isLt).2.1, (outsAt0 m c t.val t.isLt).2.2.1) = Y
  rw [outsAt0_C m c t h0 h1, first3] at hY
  rw [← hY, oC2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, oC3 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, oC4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rfl

end Cert.KernelIdeal.Accum

end
-- ==== Proof.RowStats.lean ====
/-
  The running statistics of one row of a matrix whose columns arrive in tiles.

  A row of 8192 extended reals is visited in eight tiles of 1024 columns. Of each tile three numbers are taken: its
  maximum `tmax` (a fold of `max` from `⊥`), its sum `tsum`, and the number `tcnt` of its entries equal to its maximum.
  The accumulator `Acc` holds the running maximum `M`, the running sum `S` and the running count `C` of the entries met so far that
  equal the running maximum; `step` absorbs one tile: a tile whose maximum is strictly larger replaces the maximum and the
  count, a tile whose maximum ties adds its count, a tile whose maximum is smaller leaves both. `run` absorbs tiles
  `0 … n` from `start` (maximum `⊥`, sum and count `0`).

  The whole-row quantities the running ones are compared with: `rowMax` (the fold of `max` over all 8192 columns),
  `below` (how many entries are strictly below the row's maximum) and `belowSum` (the sum of those entries, the others
  counted as `0`).
-/
import Idealize.ShloMosaic.PureOps.Ideal

noncomputable section

namespace Cert.RowStats

/-- The running maximum, sum, and count of entries equal to the running maximum. -/
structure Acc where
  M : EReal
  S : EReal
  C : EReal

/-- A tile's maximum: the fold of `max` from `⊥` over its 1024 columns. -/
def tmax (T : Fin 1024 → EReal) : EReal := (Finset.univ : Finset (Fin 1024)).fold max ⊥ T

/-- A tile's sum. -/
def tsum (T : Fin 1024 → EReal) : EReal := ∑ q : Fin 1024, T q

/-- How many of a tile's entries equal its maximum, as an extended real. -/
def tcnt (T : Fin 1024 → EReal) : EReal := ∑ q : Fin 1024, (if T q = tmax T then (1 : EReal) else 0)

/-- Absorb one tile into the running statistics. -/
def step (a : Acc) (T : Fin 1024 → EReal) : Acc where
  M := if a.M < tmax T then tmax T else a.M
  S := a.S + tsum T
  C := if a.M < tmax T then tcnt T else if tmax T = a.M then a.C + tcnt T else a.C

/-- Before any tile: maximum `⊥`, sum `0`, count `0`. -/
def start : Acc := ⟨⊥, 0, 0⟩

/-- The statistics after tiles `0 … n`. -/
def run (T : ℕ → Fin 1024 → EReal) : ℕ → Acc
  | 0 => step start (T 0)
  | n + 1 => step (run T n) (T (n + 1))

/-- Tile `m` of a row of 8192 columns: columns `1024 m … 1024 m + 1023` (`⊥` past the eighth tile). -/
def tile (f : Fin 8192 → EReal) (m : ℕ) (q : Fin 1024) : EReal :=
  if h : m < 8 then f ⟨1024 * m + q.val, by have := q.isLt; omega⟩ else ⊥

/-- The row's maximum: the fold of `max` from `⊥` over all its columns. -/
def rowMax (f : Fin 8192 → EReal) : EReal := (Finset.univ : Finset (Fin 8192)).fold max ⊥ f

/-- How many entries of the row are strictly below its maximum. -/
def below (f : Fin 8192 → EReal) : ℕ := (Finset.univ.filter fun j => f j < rowMax f).card

/-- The sum of the entries strictly below the row's maximum (the others count as `0`). -/
def belowSum (f : Fin 8192 → EReal) : EReal := ∑ j : Fin 8192, (if f j < rowMax f then f j else 0)

end Cert.RowStats

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KConsts.lean ====
import Idealize.ShloMosaic.PureOps.Ideal

noncomputable section

namespace Cert.KConsts

open Idealize.ShloMosaic

/-- The f32 word of one. -/
theorem one_f32 : Ideal.ofBits .f32 0x3F800000#32 = 1 := by
  simp [Ideal.ofBits, Ideal.ieee, -EReal.coe_mul]; norm_num

/-- The f32 word of minus infinity. -/
theorem neginf_f32 : Ideal.ofBits .f32 0xFF800000#32 = ⊥ := by
  simp [Ideal.ofBits, Ideal.ieee]

/-- The f32 word of 8192. -/
theorem c8192_f32 : Ideal.ofBits .f32 0x46000000#32 = ((8192 : ℝ) : EReal) := by
  simp [Ideal.ofBits, Ideal.ieee, -EReal.coe_mul]; norm_num

end Cert.KConsts

end
-- ==== Proof.KPayload.lean ====
/-
  The row-statistics kernel's pure terms read at one row, on the extended reals.

  For a point's two input blocks `x0` (2048 rows of the left matrix) and `x1` (1024 rows of the right matrix), the
  tile of similarities at row `p` is `simT x0 x1 p q = ∑ k, x0[p, k] · x1[q, k]` (the product with the transposed right
  block, times the constant one). Read at row `p`, the three columns `stepV` computes are the scalar step
  `RowStats.step` of the old columns' entries at `p` and of that tile; the starting columns are `RowStats.start`; and the
  output columns are the maximum, the sum minus count times maximum, and 8192 minus the count.
-/
import proofs.«124568_j35905926594960_1_alg».proof.Proof.Gen.KernelIdeal.Skeleton
import proofs.«124568_j35905926594960_1_alg».proof.Proof.RowStats
import proofs.«124568_j35905926594960_1_alg».proof.Proof.LibKeepdims
import proofs.«124568_j35905926594960_1_alg».proof.Proof.LibPlainDot
import proofs.«124568_j35905926594960_1_alg».proof.Proof.KConsts
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.RowStats Cert.KConsts

/-- The similarities of row `p` of the left block with the 1024 rows of the right block. -/
def simT (x0 : Vec Ideal S2048x256 .f32) (x1 : Vec Ideal S1024x256 .f32) (p : Fin 2048) (q : Fin 1024) : EReal :=
  ∑ k : Fin 256, x0 (ix2 p k) * x1 (ix2 q k)

/-- Any coordinate of a unit axis is zero. -/
theorem fin1 (u : Fin 1) : u = 0 := Subsingleton.elim _ _

/-- The similarity tile: the product with the transposed right block, times one. -/
theorem pay8_apply (x0 : Vec Ideal S2048x256 .f32) (x1 : Vec Ideal S1024x256 .f32) (p : Fin 2048) (q : Fin 1024) :
    k0_pay8 (F := Ideal) x0 x1 (ix2 p q) = simT x0 x1 p q := by
  unfold k0_pay8
  show FloatOps.matmul (DotDims.plain 2048 256 1024) none (truncf .bf16 x0 bitsLt_bf16_f32)
      (transpose S256x1024 [1, 0] (truncf .bf16 x1 bitsLt_bf16_f32) transposes_S1024x256_p1_0_S256x1024)
      (constant S2048x1024 .f32 0x00000000#32) (ix2 p q) * Ideal.ofBits .f32 0x3F800000#32 = _
  rw [one_f32, mul_one]
  refine (PlainDot.matmul_zero_apply 2048 256 1024 none _ _ p q).trans ?_
  refine Finset.sum_congr rfl fun k _ => congrArg (x0 (ix2 p k) * ·) ?_
  exact transpose_apply [1, 0] _ transposes_S1024x256_p1_0_S256x1024 (ix2 k q) (ix2 q k) (fun b => match b with
    | ⟨0, _⟩ => rfl
    | ⟨1, _⟩ => rfl)

/-- The tile's maximum, as a column. -/
theorem pay9_apply (x0 : Vec Ideal S2048x256 .f32) (x1 : Vec Ideal S1024x256 .f32) (p : Fin 2048) (u : Fin 1) :
    k0_pay9 (F := Ideal) x0 x1 (ix2 p u) = tmax (simT x0 x1 p) := by
  unfold k0_pay9
  refine (Cert.LibKeepdims.shapeCast_a_a1_apply _ shapeCasts_S2048_S2048x1 p u).trans ?_
  refine (Ideal.multiReduction_maximumf_single (k0_pay8 x0 x1) 0xFF800000#32 reduces_S2048x1024_S2048 (.inl rfl) rfl (ix1 p)).trans ?_
  unfold tmax
  show (Finset.univ : Finset (Fin 1024)).fold max (Ideal.ofBits .f32 0xFF800000#32)
      (fun q => k0_pay8 x0 x1 (reduces_S2048x1024_S2048.lift (ix1 p) q)) = _
  rw [neginf_f32]
  refine congrArg (fun f => Finset.fold max ⊥ f (Finset.univ : Finset (Fin 1024))) (funext fun q => ?_)
  have e : reduces_S2048x1024_S2048.lift (ix1 p) q = ix2 p q := funext fun ax => Fin.ext (by
    match ax with
    | ⟨0, _⟩ => rfl
    | ⟨1, _⟩ => rfl)
  rw [e]
  exact pay8_apply x0 x1 p q

/-- The tile's sum, as a column. -/
theorem rowsum_apply (x0 : Vec Ideal S2048x256 .f32) (x1 : Vec Ideal S1024x256 .f32) (p : Fin 2048) (u : Fin 1) :
    shapeCast S2048x1 (multiReduction .add [1] S2048 (k0_pay8 (F := Ideal) x0 x1) 0x00000000#32 reduces_S2048x1024_S2048 (.inl rfl) rfl)
      shapeCasts_S2048_S2048x1 (ix2 p u) = Cert.RowStats.tsum (simT x0 x1 p) := by
  refine (Cert.LibKeepdims.shapeCast_a_a1_apply _ shapeCasts_S2048_S2048x1 p u).trans ?_
  refine (Cert.LibKeepdims.rowSum_apply (k0_pay8 x0 x1) 0x00000000#32 reduces_S2048x1024_S2048 (.inl rfl) rfl p).trans ?_
  exact Finset.sum_congr rfl fun q _ => pay8_apply x0 x1 p q

/-- One entry's contribution to the count: the comparison bit, widened and read as a number. -/
theorem cnt_elem (a b : EReal) :
    ((((Ideal.cmp .oeq a b).setWidth 32).toInt : ℝ) : EReal) = if a = b then 1 else 0 := by
  unfold Ideal.cmp
  by_cases h : a = b
  · simp [h]
  · simp [h]

/-- The number of the tile's entries equal to its maximum, as a column. -/
theorem rowcnt_apply (x0 : Vec Ideal S2048x256 .f32) (x1 : Vec Ideal S1024x256 .f32) (p : Fin 2048) (u : Fin 1) :
    shapeCast S2048x1 (multiReduction .add [1] S2048
        (sitofp (F := Ideal) .f32 (extui 32 (cmpf .oeq (k0_pay8 (F := Ideal) x0 x1)
          (broadcastTo S2048x1024 (k0_pay9 x0 x1) broadcasts_S2048x1_S2048x1024)) natLt_1_32))
        0x00000000#32 reduces_S2048x1024_S2048 (.inl rfl) rfl)
      shapeCasts_S2048_S2048x1 (ix2 p u) = tcnt (simT x0 x1 p) := by
  refine (Cert.LibKeepdims.shapeCast_a_a1_apply _ shapeCasts_S2048_S2048x1 p u).trans ?_
  refine (Cert.LibKeepdims.rowSum_apply _ 0x00000000#32 reduces_S2048x1024_S2048 (.inl rfl) rfl p).trans ?_
  unfold tcnt
  refine Finset.sum_congr rfl fun q _ => ?_
  show ((((Ideal.cmp .oeq (k0_pay8 x0 x1 (ix2 p q))
      (broadcastTo S2048x1024 (k0_pay9 x0 x1) broadcasts_S2048x1_S2048x1024 (ix2 p q))).setWidth 32).toInt : ℝ) : EReal) = _
  rw [Cert.LibKeepdims.broadcastTo_a1_ab_apply, pay8_apply, pay9_apply]
  exact cnt_elem _ _

end Cert.KernelIdeal.Payload

end
-- ==== Proof.KPayload2.lean ====
/-
  One step of the row statistics, and the output columns, read at one row.

  With the tile's maximum, sum and count of ties read at a row (the companion module), the three columns the kernel's
  step computes are the scalar step of the running statistics, the starting columns are the starting statistics, and the
  two derived output columns are the sum minus count times maximum and 8192 minus the count.
-/
import proofs.«124568_j35905926594960_1_alg».proof.Proof.KPayload

noncomputable section

open Idealize.ShloMosaic Idealize.ShloMosaic.ValueIdx

namespace Cert.KernelIdeal.Payload

open Cert.KernelIdeal Cert.KernelIdeal.Gen Cert.RowStats Cert.KConsts

/-- A select on a comparison bit is an `if`. -/
theorem select_ogt {α : Type} (a b : EReal) (x y : α) : Scalar.select (Ideal.cmp .ogt a b) x y = if b < a then x else y := by
  unfold Scalar.select Ideal.cmp
  by_cases h : b < a <;> simp [h]
theorem select_oeq {α : Type} (a b : EReal) (x y : α) : Scalar.select (Ideal.cmp .oeq a b) x y = if a = b then x else y := by
  unfold Scalar.select Ideal.cmp
  by_cases h : a = b <;> simp [h]

/-- The running maximum's select, at an index, over any columns. -/
theorem selM (T vM : FVec Ideal S2048x1 .f32) (j : S2048x1.Idx) :
    select (cmpf .ogt T vM) T vM j = if vM j < T j then T j else vM j := by
  show Scalar.select (Ideal.cmp .ogt (T j) (vM j)) (T j) (vM j) = _
  exact select_ogt _ _ _ _

/-- The running count's two nested selects, at an index, over any columns. -/
theorem selC (T vM C vC : FVec Ideal S2048x1 .f32) (j : S2048x1.Idx) :
    select (cmpf .ogt T vM) C (select (cmpf .oeq T vM) (addf vC C) vC) j
      = if vM j < T j then C j else if T j = vM j then vC j + C j else vC j := by
  show Scalar.select (Ideal.cmp .ogt (T j) (vM j)) (C j) (Scalar.select (Ideal.cmp .oeq (T j) (vM j)) (vC j + C j) (vC j)) = _
  rw [select_ogt, select_oeq]

/-- The new running maximum at row `p`. -/
theorem newM_apply (x0 : Vec Ideal S2048x256 .f32) (x1 : Vec Ideal S1024x256 .f32) (vM : Vec Ideal S2048x1 .f32)
    (p : Fin 2048) (u : Fin 1) :
    k0_pay1 (k0_pay11 (F := Ideal) x0 x1 vM) (ix2 p u)
      = if vM (ix2 p u) < tmax (simT x0 x1 p) then tmax (simT x0 x1 p) else vM (ix2 p u) := by
  have e1 : k0_pay1 (k0_pay11 (F := Ideal) x0 x1 vM) = select (cmpf .ogt (k0_pay9 x0 x1) vM) (k0_pay9 x0 x1) vM :=
    shapeCast_self _ _
  rw [e1, selM, pay9_apply]

/-- The new running sum at row `p`. -/
theorem newS_apply (x0 : Vec Ideal S2048x256 .f32) (x1 : Vec Ideal S1024x256 .f32) (vS : Vec Ideal S2048x1 .f32)
    (p : Fin 2048) (u : Fin 1) :
    k0_pay13 (F := Ideal) x0 x1 vS (ix2 p u) = vS (ix2 p u) + Cert.RowStats.tsum (simT x0 x1 p) := by
  unfold k0_pay13
  simp only [shapeCast_self]
  exact congrArg (vS (ix2 p u) + ·) (rowsum_apply x0 x1 p u)

/-- The column of the tile's tie counts. -/
def cntCol (x0 : Vec Ideal S2048x256 .f32) (x1 : Vec Ideal S1024x256 .f32) : FVec Ideal S2048x1 .f32 :=
  shapeCast S2048x1 (multiReduction .add [1] S2048
      (sitofp (F := Ideal) .f32 (extui 32 (cmpf .oeq (k0_pay8 (F := Ideal) x0 x1)
        (broadcastTo S2048x1024 (k0_pay9 x0 x1) broadcasts_S2048x1_S2048x1024)) natLt_1_32))
      0x00000000#32 reduces_S2048x1024_S2048 (.inl rfl) rfl)
    shapeCasts_S2048_S2048x1

theorem cntCol_apply (x0 : Vec Ideal S2048x256 .f32) (x1 : Vec Ideal S1024x256 .f32) (p : Fin 2048) (u : Fin 1) :
    cntCol x0 x1 (ix2 p u) = tcnt (simT x0 x1 p) := rowcnt_apply x0 x1 p u

/-- The count payload is two nested selects over the tie-count column. -/
theorem pay12_eq (x0 : Vec Ideal S2048x256 .f32) (x1 : Vec Ideal S1024x256 .f32) (vM vC : Vec Ideal S2048x1 .f32) :
    k0_pay12 (F := Ideal) x0 x1 vM vC
      = select (cmpf .ogt (k0_pay9 x0 x1) vM) (cntCol x0 x1)
          (select (cmpf .oeq (k0_pay9 x0 x1) vM) (addf vC (cntCol x0 x1)) vC) := rfl

/-- The new running count at row `p`. -/
theorem newC_apply (x0 : Vec Ideal S2048x256 .f32) (x1 : Vec Ideal S1024x256 .f32) (vM vC : Vec Ideal S2048x1 .f32)
    (p : Fin 2048) (u : Fin 1) :
    k0_pay2 (k0_pay12 (F := Ideal) x0 x1 vM vC) (ix2 p u)
      = if vM (ix2 p u) < tmax (simT x0 x1 p) then tcnt (simT x0 x1 p)
        else if tmax (simT x0 x1 p) = vM (ix2 p u) then vC (ix2 p u) + tcnt (simT x0 x1 p) else vC (ix2 p u) := by
  have e1 : k0_pay2 (k0_pay12 (F := Ideal) x0 x1 vM vC) = k0_pay12 x0 x1 vM vC := shapeCast_self _ _
  rw [e1, pay12_eq, selC, cntCol_apply, pay9_apply]

/-- The starting columns at row `p`. -/
theorem start_apply (p : Fin 2048) (u : Fin 1) :
    k0_pay5 (F := Ideal) (ix2 p u) = ⊥ ∧ k0_pay6 (F := Ideal) (ix2 p u) = 0 ∧ k0_pay7 (F := Ideal) (ix2 p u) = 0 := by
  unfold k0_pay5 k0_pay6 k0_pay7
  simp only [shapeCast_self]
  exact ⟨neginf_f32, Ideal.ofBits_zero_f32, Ideal.ofBits_zero_f32⟩

/-- The second output column: sum minus count times maximum. -/
theorem pay3_apply (vS vC vM : Vec Ideal S2048x1 .f32) (j : S2048x1.Idx) :
    k0_pay3 (F := Ideal) vS vC vM j = vS j - vC j * vM j := rfl

/-- The third output column: 8192 minus the count. -/
theorem pay4_apply (vC : Vec Ideal S2048x1 .f32) (j : S2048x1.Idx) :
    k0_pay4 (F := Ideal) vC j = ((8192 : ℝ) : EReal) - vC j := by
  show Ideal.ofBits .f32 0x46000000#32 - vC j = _
  rw [c8192_f32]

end Cert.KernelIdeal.Payload

end
-- ==== Proof.KInv.lean ====
/-
  The scratch columns of the row-statistics kernel are, row by row, the running statistics of that row.

  At grid point `n = 8 i + k` (row block `i`, column tile `k`) and row `p` of the block, the three scratch columns hold
  the running maximum, sum and count `acc` of the tiles `0 … k` of that row block: `acc` restarts from `RowStats.start`
  whenever `n` is a multiple of eight and otherwise absorbs the point's tile into what the point before left. Within a
  row block this is `RowStats.run` over the block's eight tiles.
-/
import proofs.«124568_j35905926594960_1_alg».proof.Proof.KAccum
import proofs.«124568_j35905926594960_1_alg».proof.Proof.KPayload2

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Accum Cert.KernelIdeal.Payload Cert.RowStats

variable (m : (ℓ : Loc nD τ sig) → Buf (Elt Ideal) ℓ)

/-- The two input blocks at a point, as plain arrays. -/
def X0 (c : Dev nD) (t : Fin cfg0.N) : Vec Ideal S2048x256 .f32 := iblk m c 0 t
def X1 (c : Dev nD) (t : Fin cfg0.N) : Vec Ideal S1024x256 .f32 := iblk m c 1 t

/-- The similarity tile of row `p` at point `n` (`⊥` past the last point). -/
def tl (c : Dev nD) (p : Fin 2048) (n : ℕ) (q : Fin 1024) : EReal :=
  if h : n < cfg0.N then simT (X0 m c ⟨n, h⟩) (X1 m c ⟨n, h⟩) p q else ⊥

/-- The running statistics of row `p` after point `n`: restarted at every multiple of eight. -/
def acc (c : Dev nD) (p : Fin 2048) : ℕ → Acc
  | 0 => step start (tl m c p 0)
  | n + 1 => if (n + 1) % 8 = 0 then step start (tl m c p (n + 1)) else step (acc c p n) (tl m c p (n + 1))

/-- One step at the level of columns is the scalar step at every row. -/
theorem step_to (x0 : Vec Ideal S2048x256 .f32) (x1 : Vec Ideal S1024x256 .f32) (s : Cols Ideal) (a : Acc) (p : Fin 2048) (u : Fin 1)
    (hM : s.1 (ix2 p u) = a.M) (hS : s.2.1 (ix2 p u) = a.S) (hC : s.2.2 (ix2 p u) = a.C) :
    (stepV x0 x1 s).1 (ix2 p u) = (step a (simT x0 x1 p)).M ∧ (stepV x0 x1 s).2.1 (ix2 p u) = (step a (simT x0 x1 p)).S
      ∧ (stepV x0 x1 s).2.2 (ix2 p u) = (step a (simT x0 x1 p)).C := by
  unfold stepV step
  dsimp only
  rw [newM_apply x0 x1 s.1 p u, newS_apply x0 x1 s.2.1 p u, newC_apply x0 x1 s.1 s.2.2 p u, hM, hS, hC]
  exact ⟨rfl, rfl, rfl⟩

theorem tl_pos (c : Dev nD) (p : Fin 2048) (n : ℕ) (h : n < cfg0.N) : tl m c p n = simT (X0 m c ⟨n, h⟩) (X1 m c ⟨n, h⟩) p :=
  funext fun q => dif_pos h

/-- The scratch columns after point `n`, read at row `p`, are the running statistics `acc`. -/
theorem scr_eq (c : Dev nD) : ∀ (n : ℕ) (hn : n < cfg0.N) (p : Fin 2048) (u : Fin 1),
    (scr m c n hn).1 (ix2 p u) = (acc m c p n).M ∧ (scr m c n hn).2.1 (ix2 p u) = (acc m c p n).S
      ∧ (scr m c n hn).2.2 (ix2 p u) = (acc m c p n).C
  | 0, hn, p, u => by
    have e : scr m c 0 hn = stepV (X0 m c ⟨0, hn⟩) (X1 m c ⟨0, hn⟩) startV := scr_first m c ⟨0, hn⟩ (Nat.zero_mod 8)
    rw [e]
    have hs := start_apply p u
    have h := step_to (X0 m c ⟨0, hn⟩) (X1 m c ⟨0, hn⟩) startV start p u hs.1 hs.2.1 hs.2.2
    rw [← tl_pos m c p 0 hn] at h
    have ea : acc m c p 0 = step start (tl m c p 0) := rfl
    rw [ea]
    exact h
  | n + 1, hn, p, u => by
    by_cases h0 : (n + 1) % 8 = 0
    · have e : scr m c (n + 1) hn = stepV (X0 m c ⟨n + 1, hn⟩) (X1 m c ⟨n + 1, hn⟩) startV := scr_first m c ⟨n + 1, hn⟩ h0
      rw [e]
      have hs := start_apply p u
      have h := step_to (X0 m c ⟨n + 1, hn⟩) (X1 m c ⟨n + 1, hn⟩) startV start p u hs.1 hs.2.1 hs.2.2
      rw [← tl_pos m c p (n + 1) hn] at h
      have ea : acc m c p (n + 1) = step start (tl m c p (n + 1)) := if_pos h0
      rw [ea]
      exact h
    · have e : scr m c (n + 1) hn = stepV (X0 m c ⟨n + 1, hn⟩) (X1 m c ⟨n + 1, hn⟩) (scr m c n (Nat.lt_of_succ_lt hn)) :=
        scr_next m c ⟨n + 1, hn⟩ h0
      rw [e]
      have ih := scr_eq c n (Nat.lt_of_succ_lt hn) p u
      have h := step_to (X0 m c ⟨n + 1, hn⟩) (X1 m c ⟨n + 1, hn⟩) (scr m c n (Nat.lt_of_succ_lt hn)) (acc m c p n) p u ih.1 ih.2.1 ih.2.2
      rw [← tl_pos m c p (n + 1) hn] at h
      have ea : acc m c p (n + 1) = step (acc m c p n) (tl m c p (n + 1)) := if_neg h0
      rw [ea]
      exact h

/-- Two tile families that agree on tiles `0 … k` have the same statistics after tile `k`. -/
theorem run_congr (T T' : ℕ → Fin 1024 → EReal) : ∀ k : ℕ, (∀ j, j ≤ k → T j = T' j) → run T k = run T' k
  | 0, h => by show step start (T 0) = step start (T' 0); rw [h 0 le_rfl]
  | k + 1, h => by
    show step (run T k) (T (k + 1)) = step (run T' k) (T' (k + 1))
    rw [run_congr T T' k (fun j hj => h j (Nat.le_succ_of_le hj)), h (k + 1) le_rfl]

/-- Within row block `i` the running statistics are `RowStats.run` over the block's tiles. -/
theorem acc_run (c : Dev nD) (p : Fin 2048) (i : ℕ) : ∀ k : ℕ, k < 8 → acc m c p (8 * i + k) = run (fun j => tl m c p (8 * i + j)) k
  | 0, _ => by
    cases i with
    | zero => rfl
    | succ i =>
      show acc m c p (8 * i + 7 + 1) = _
      have h0 : (8 * i + 7 + 1) % 8 = 0 := by omega
      exact (if_pos h0).trans rfl
  | k + 1, hk => by
    have h0 : ¬(8 * i + k + 1) % 8 = 0 := by omega
    show acc m c p (8 * i + k + 1) = step (run (fun j => tl m c p (8 * i + j)) k) (tl m c p (8 * i + (k + 1)))
    rw [← acc_run c p i k (Nat.lt_of_succ_lt hk)]
    exact if_neg h0

end Cert.KernelIdeal.Inv

end
-- ==== Proof.RowStatsLaws.lean ====
/-
  Laws of the running row statistics, and two facts about folds of 32-bit words.

  The row has 8192 columns, visited in eight tiles of 1024. Write cols m for the columns of tile m, the
  interval [1024 m, 1024 m + 1024), and pre n for the columns of tiles 0 … n, the interval [0, 1024 (n + 1)).
  The map q ↦ 1024 m + q is an injection of the 1024 tile positions onto cols m, so a tile's maximum, sum and
  count of entries equal to its maximum are the fold of max, the sum, and the count of ties over cols m.

  The invariant. After tiles 0 … n the accumulator holds, over P = pre n: M = the fold of max from ⊥ over P,
  S = the sum over P, C = the number of j in P with f j = M. Absorbing a tile with column set T disjoint from P,
  with a the maximum over P and b the maximum over T: the maximum over P ∪ T is max a b; and the number of
  entries of P ∪ T equal to max a b is the number of ties in T when a < b (every entry of P is ≤ a < b), the
  sum of both tie counts when a = b, and the number of ties in P when b < a (every entry of T is ≤ b < a).
  This is what step computes, so the invariant is kept; pre 7 is the whole row.

  With every entry real the row maximum μ is real (the row is nonempty, and no entry is ⊤), and every entry is
  either below μ or equal to it. Hence (sum of all entries) = (sum of the entries below μ) + (number of ties) · μ
  and 8192 = (number below) + (number of ties); both are identities of real numbers, carried to the extended
  reals by the coercion, which respects finite sums, differences and products of reals.

  Words. A fold of word addition over 0/1 words counts, modulo 2^32, the indices where the predicate holds
  (induction on the index set). For the signed maximum: send the word -2^31 to ⊥ and every other word to its
  signed value as a real. This map is monotone for the signed order, so it carries the signed maximum of two
  words to the max of their images, hence a fold of signed maxima from -2^31 to the fold of max from ⊥. When
  all the words are naturals ≤ 8192 and the index set is nonempty the result is not ⊥, so the folded word is not
  -2^31 and its image is its signed value.
-/
import proofs.«124568_j35905926594960_1_alg».proof.Proof.RowStats
import Idealize.ShloMosaic.PureOps.Reduce

noncomputable section

namespace Cert.RowStats

open Finset Idealize.ShloMosaic

/-! ### Tiles as sets of columns -/

/-- The columns of tile m. -/
def cols (m : ℕ) : Finset (Fin 8192) := univ.filter fun j => 1024 * m ≤ j.val ∧ j.val < 1024 * (m + 1)

/-- The columns of tiles 0 … n. -/
def pre (n : ℕ) : Finset (Fin 8192) := univ.filter fun j => j.val < 1024 * (n + 1)

/-- Position q of tile m is column 1024 m + q. -/
def emb (m : ℕ) (h : m < 8) : Fin 1024 ↪ Fin 8192 :=
  ⟨fun q => ⟨1024 * m + q.val, by have := q.isLt; omega⟩, fun a b hab => by
    have h1 : 1024 * m + a.val = 1024 * m + b.val := congrArg Fin.val hab
    exact Fin.ext (by omega)⟩

theorem cols_eq_map (m : ℕ) (h : m < 8) : cols m = univ.map (emb m h) := by
  ext j
  simp only [cols, mem_filter, mem_univ, true_and, mem_map, emb, Function.Embedding.coeFn_mk]
  constructor
  · rintro ⟨h1, h2⟩
    exact ⟨⟨j.val - 1024 * m, by omega⟩, Fin.ext (by show 1024 * m + (j.val - 1024 * m) = j.val; omega)⟩
  · rintro ⟨q, rfl⟩
    have := q.isLt
    show 1024 * m ≤ 1024 * m + q.val ∧ 1024 * m + q.val < 1024 * (m + 1)
    omega

theorem tile_eq (f : Fin 8192 → EReal) (m : ℕ) (h : m < 8) : tile f m = fun q => f (emb m h q) := by
  funext q
  unfold tile
  rw [dif_pos h]
  rfl

theorem tmax_tile (f : Fin 8192 → EReal) (m : ℕ) (h : m < 8) :
    tmax (tile f m) = (cols m).fold max ⊥ f := by
  rw [cols_eq_map m h, fold_map, tile_eq f m h]
  rfl

theorem tsum_tile (f : Fin 8192 → EReal) (m : ℕ) (h : m < 8) :
    tsum (tile f m) = ∑ j ∈ cols m, f j := by
  rw [cols_eq_map m h, sum_map, tile_eq f m h]
  rfl

theorem tcnt_tile (f : Fin 8192 → EReal) (m : ℕ) (h : m < 8) :
    tcnt (tile f m) = (((cols m).filter fun j => f j = (cols m).fold max ⊥ f).card : EReal) := by
  rw [← sum_boole, ← tmax_tile f m h, cols_eq_map m h, sum_map, tile_eq f m h]
  rfl

theorem pre_zero : pre 0 = cols 0 := by
  ext j
  simp only [pre, cols, mem_filter, mem_univ, true_and]
  omega

theorem pre_succ (n : ℕ) : pre (n + 1) = pre n ∪ cols (n + 1) := by
  ext j
  simp only [pre, cols, mem_filter, mem_univ, true_and, mem_union]
  omega

theorem pre_disj (n : ℕ) : Disjoint (pre n) (cols (n + 1)) := by
  rw [disjoint_left]
  intro j h1 h2
  simp only [pre, cols, mem_filter, mem_univ, true_and] at h1 h2
  omega

theorem pre_seven : pre 7 = univ := by
  ext j
  have := j.isLt
  simp only [pre, mem_filter, mem_univ, true_and, iff_true]
  omega

/-! ### The invariant -/

/-- Over the column set P the accumulator holds the maximum, the sum, and the number of ties with the maximum. -/
structure Inv (f : Fin 8192 → EReal) (P : Finset (Fin 8192)) (a : Acc) : Prop where
  hM : a.M = P.fold max ⊥ f
  hS : a.S = ∑ j ∈ P, f j
  hC : a.C = ((P.filter fun j => f j = a.M).card : EReal)

theorem le_foldmax (f : Fin 8192 → EReal) (P : Finset (Fin 8192)) {j : Fin 8192} (hj : j ∈ P) :
    f j ≤ P.fold max ⊥ f :=
  (le_fold_max _).2 (Or.inr ⟨j, hj, le_rfl⟩)

theorem Inv.absorb {f : Fin 8192 → EReal} {P : Finset (Fin 8192)} {a : Acc} (hI : Inv f P a)
    (m : ℕ) (hm : m < 8) (hd : Disjoint P (cols m)) : Inv f (P ∪ cols m) (step a (tile f m)) := by
  obtain ⟨hM, hS, hC⟩ := hI
  obtain ⟨b, hb, hcnt, hble⟩ : ∃ b, tmax (tile f m) = b ∧
      tcnt (tile f m) = (((cols m).filter fun j => f j = b).card : EReal) ∧ ∀ j ∈ cols m, f j ≤ b :=
    ⟨_, tmax_tile f m hm, tcnt_tile f m hm, fun j hj => le_foldmax f _ hj⟩
  have hale : ∀ j ∈ P, f j ≤ a.M := fun j hj => hM ▸ le_foldmax f P hj
  have hfold : (P ∪ cols m).fold max ⊥ f = max a.M b := by
    have h1 := fold_union_inter (op := max) (f := f) (s₁ := P) (s₂ := cols m) (b₁ := ⊥) (b₂ := ⊥)
    rw [disjoint_iff_inter_eq_empty.1 hd, fold_empty, max_bot_right, ← hM,
      ← tmax_tile f m hm, hb] at h1
    exact h1
  have hMnew : (step a (tile f m)).M = max a.M b := by
    show (if a.M < tmax (tile f m) then tmax (tile f m) else a.M) = _
    rw [hb]
    split_ifs with h
    · exact (max_eq_right h.le).symm
    · exact (max_eq_left (not_lt.1 h)).symm
  refine ⟨hMnew.trans hfold.symm, ?_, ?_⟩
  · show a.S + tsum (tile f m) = _
    rw [tsum_tile f m hm, hS, sum_union hd]
  · rw [hMnew, filter_union, card_union_of_disjoint (disjoint_filter_filter hd)]
    show (if a.M < tmax (tile f m) then tcnt (tile f m)
      else if tmax (tile f m) = a.M then a.C + tcnt (tile f m) else a.C) = _
    rw [hb, hcnt]
    split_ifs with h1 h2
    · have he : P.filter (fun j => f j = max a.M b) = ∅ :=
        filter_eq_empty_iff.2 fun j hj hjb => by
          rw [max_eq_right h1.le] at hjb
          exact absurd (hjb ▸ hale j hj) (not_le.2 h1)
      rw [he, card_empty, zero_add, max_eq_right h1.le]
    · rw [hC, h2, max_self, Nat.cast_add]
    · have hlt : b < a.M := lt_of_le_of_ne (not_lt.1 h1) h2
      have he : (cols m).filter (fun j => f j = max a.M b) = ∅ :=
        filter_eq_empty_iff.2 fun j hj hjb => by
          rw [max_eq_left hlt.le] at hjb
          exact absurd (hjb ▸ hble j hj) (not_le.2 hlt)
      rw [he, card_empty, add_zero, max_eq_left hlt.le, hC]

theorem inv_start (f : Fin 8192 → EReal) : Inv f ∅ start :=
  ⟨by simp [start], by simp [start], by
    show (0 : EReal) = _
    rw [filter_empty, card_empty, Nat.cast_zero]⟩

theorem run_inv (f : Fin 8192 → EReal) : ∀ n, n < 8 → Inv f (pre n) (run (tile f) n)
  | 0, _ => by
    have h := (inv_start f).absorb 0 (by norm_num) (disjoint_empty_left _)
    rw [empty_union, ← pre_zero] at h
    exact h
  | n + 1, hn => by
    have h := (run_inv f n (by omega)).absorb (n + 1) hn (pre_disj n)
    rw [← pre_succ] at h
    exact h

theorem run_inv_univ (f : Fin 8192 → EReal) : Inv f univ (run (tile f) 7) := by
  have h := run_inv f 7 (by norm_num)
  rwa [pre_seven] at h

theorem run_M (f : Fin 8192 → EReal) : (run (tile f) 7).M = rowMax f :=
  (run_inv_univ f).hM

/-! ### Real entries -/

/-- The coercion of a finite sum of reals. -/
theorem coe_sum {ι : Type*} (s : Finset ι) (g : ι → ℝ) :
    ((∑ j ∈ s, g j : ℝ) : EReal) = ∑ j ∈ s, (g j : EReal) := by
  classical
  induction s using Finset.induction_on with
  | empty => simp
  | insert a s ha ih => rw [sum_insert ha, sum_insert ha, EReal.coe_add, ih]

/-- Entries bounded by μ: the total is the sum of the entries below μ plus (number of ties) · μ. -/
theorem real_split {ι : Type*} (s : Finset ι) (g : ι → ℝ) (μ : ℝ) (h : ∀ j ∈ s, g j ≤ μ) :
    ∑ j ∈ s, g j - ((s.filter fun j => g j = μ).card : ℝ) * μ
      = ∑ j ∈ s, if g j < μ then g j else 0 := by
  have key : ∑ j ∈ s, g j
      = (∑ j ∈ s, if g j < μ then g j else 0) + ((s.filter fun j => g j = μ).card : ℝ) * μ := by
    rw [← nsmul_eq_mul, ← sum_const, sum_filter, ← sum_add_distrib]
    refine sum_congr rfl fun j hj => ?_
    rcases lt_or_eq_of_le (h j hj) with h1 | h1
    · rw [if_pos h1, if_neg h1.ne, add_zero]
    · rw [if_neg (by rw [h1]; exact lt_irrefl μ), if_pos h1, zero_add, h1]
  rw [key]
  ring

theorem le_rowMax (f : Fin 8192 → EReal) (j : Fin 8192) : f j ≤ rowMax f :=
  le_foldmax f univ (mem_univ j)

/-- A row of reals has a real maximum. -/
theorem rowMax_real (f : Fin 8192 → EReal) (g : Fin 8192 → ℝ) (hg : ∀ j, f j = (g j : EReal)) :
    ∃ μ : ℝ, rowMax f = (μ : EReal) := by
  have hne_bot : rowMax f ≠ ⊥ := fun h => by
    have h0 := le_rowMax f ⟨0, by norm_num⟩
    rw [h, hg] at h0
    exact absurd h0 (not_le.2 (EReal.bot_lt_coe _))
  have hne_top : rowMax f ≠ ⊤ :=
    ((fold_max_lt _).2 ⟨bot_lt_top, fun j _ => by rw [hg j]; exact EReal.coe_lt_top _⟩).ne
  exact ⟨(rowMax f).toReal, (EReal.coe_toReal hne_top hne_bot).symm⟩

theorem run_neg (f : Fin 8192 → EReal) (hf : ∀ j, ∃ r : ℝ, f j = (r : EReal)) :
    (run (tile f) 7).S - (run (tile f) 7).C * (run (tile f) 7).M = belowSum f := by
  obtain ⟨hM, hS, hC⟩ := run_inv_univ f
  have hM' : (run (tile f) 7).M = rowMax f := hM
  choose g hg using hf
  obtain ⟨μ, hμ⟩ := rowMax_real f g hg
  have hS' : (run (tile f) 7).S = ((∑ j, g j : ℝ) : EReal) := by
    rw [hS, coe_sum]
    exact sum_congr rfl fun j _ => hg j
  have hC' : (run (tile f) 7).C = (((univ.filter fun j => g j = μ).card : ℝ) : EReal) := by
    rw [hC, hM', hμ, EReal.coe_coe_eq_natCast]
    congr 2
    exact filter_congr fun j _ => by rw [hg j, EReal.coe_eq_coe_iff]
  have hB : belowSum f = ((∑ j, (if g j < μ then g j else 0) : ℝ) : EReal) := by
    rw [coe_sum]
    unfold belowSum
    refine sum_congr rfl fun j _ => ?_
    rw [hμ, hg j]
    by_cases h : g j < μ
    · rw [if_pos h, if_pos (EReal.coe_lt_coe_iff.2 h)]
    · rw [if_neg h, if_neg (fun h' => h (EReal.coe_lt_coe_iff.1 h')), EReal.coe_zero]
  rw [hS', hC', hM', hμ, hB, ← EReal.coe_mul, ← EReal.coe_sub]
  refine congrArg _ (real_split univ g μ fun j _ => ?_)
  have h := le_rowMax f j
  rwa [hμ, hg j, EReal.coe_le_coe_iff] at h

/-- Every entry is below the maximum or equal to it: the two counts add up to the number of columns. -/
theorem below_add_ties (f : Fin 8192 → EReal) :
    (univ.filter fun j => f j < rowMax f).card + (univ.filter fun j => f j = rowMax f).card = 8192 := by
  have h := card_filter_add_card_filter_not (s := (univ : Finset (Fin 8192))) (fun j => f j < rowMax f)
  rw [card_univ, Fintype.card_fin] at h
  refine Eq.trans ?_ h
  congr 2
  exact filter_congr fun j _ =>
    ⟨fun he => by rw [he]; exact lt_irrefl _, fun hn => le_antisymm (le_rowMax f j) (not_lt.1 hn)⟩

theorem ereal_nat_sub (b k : ℕ) (h : b + k = 8192) :
    ((8192 : ℝ) : EReal) - ((k : ℕ) : EReal) = ((b : ℕ) : EReal) := by
  rw [← EReal.coe_coe_eq_natCast k, ← EReal.coe_coe_eq_natCast b, ← EReal.coe_sub]
  have h' : (b : ℝ) + (k : ℝ) = 8192 := by exact_mod_cast h
  exact congrArg _ (by linarith)

theorem run_cnt (f : Fin 8192 → EReal) (hf : ∀ j, ∃ r : ℝ, f j = (r : EReal)) :
    ((8192 : ℝ) : EReal) - (run (tile f) 7).C = ((below f : ℕ) : EReal) := by
  obtain ⟨hM, _, hC⟩ := run_inv_univ f
  have hM' : (run (tile f) 7).M = rowMax f := hM
  rw [hC, hM']
  exact ereal_nat_sub _ _ (below_add_ties f)

theorem below_le (f : Fin 8192 → EReal) : below f ≤ 8192 := by
  have h := card_filter_le (univ : Finset (Fin 8192)) (fun j => f j < rowMax f)
  rw [card_univ, Fintype.card_fin] at h
  exact h

/-! ### Words -/

theorem addi_count_aux {α : Type*} [DecidableEq α] (p : α → Prop) [DecidablePred p] (s : Finset α) :
    s.fold IntOp.addi 0#32 (fun k => (BitVec.ofBool (decide (p k))).setWidth 32)
      = BitVec.ofNat 32 (s.filter p).card := by
  induction s using Finset.induction_on with
  | empty => simp
  | insert a s ha ih =>
    rw [fold_insert ha, ih, filter_insert]
    by_cases h : p a
    · rw [if_pos h, card_insert_of_notMem (by simp [ha]), Nat.add_comm, BitVec.ofNat_add]
      simp [h, IntOp.addi]
    · rw [if_neg h]
      simp [h, IntOp.addi]

theorem addi_count (p : Fin 8192 → Prop) [DecidablePred p] :
    (Finset.univ : Finset (Fin 8192)).fold Idealize.ShloMosaic.IntOp.addi 0#32 (fun k => (BitVec.ofBool (decide (p k))).setWidth 32)
      = BitVec.ofNat 32 (Finset.univ.filter p).card :=
  addi_count_aux p univ

/-- The word -2^31 read as ⊥, every other word as its signed value. -/
def wordVal (x : BitVec 32) : EReal := if x = 2147483648#32 then ⊥ else ((x.toInt : ℝ) : EReal)

theorem toInt_min : (2147483648#32 : BitVec 32).toInt = -2147483648 := by decide

theorem wordVal_mono {x y : BitVec 32} (h : x.toInt ≤ y.toInt) : wordVal x ≤ wordVal y := by
  unfold wordVal
  by_cases hx : x = 2147483648#32
  · rw [if_pos hx]; exact bot_le
  · rw [if_neg hx]
    by_cases hy : y = 2147483648#32
    · exfalso
      have h2 := BitVec.le_toInt x
      rw [hy, toInt_min] at h
      refine hx (BitVec.eq_of_toInt_eq ?_)
      rw [toInt_min]
      norm_num at h2
      omega
    · rw [if_neg hy]
      exact EReal.coe_le_coe_iff.2 (by exact_mod_cast h)

theorem wordVal_maxsi (x y : BitVec 32) :
    wordVal (IntOp.maxsi x y) = max (wordVal x) (wordVal y) := by
  unfold IntOp.maxsi
  by_cases h : y.slt x = true
  · rw [if_pos h]
    have h' : y.toInt < x.toInt := by simpa [BitVec.slt] using h
    exact (max_eq_left (wordVal_mono h'.le)).symm
  · rw [if_neg h]
    have h' : x.toInt ≤ y.toInt := by simpa [BitVec.slt] using h
    exact (max_eq_right (wordVal_mono h')).symm

theorem wordVal_ofNat (k : ℕ) (hk : k ≤ 8192) : wordVal (BitVec.ofNat 32 k) = ((k : ℕ) : EReal) := by
  have h1 : (BitVec.ofNat 32 k).toInt = (k : ℤ) := by
    rw [BitVec.toInt_ofNat']
    norm_num [Int.bmod]
    omega
  have hne : BitVec.ofNat 32 k ≠ 2147483648#32 := by
    intro h
    have h2 := congrArg BitVec.toInt h
    rw [h1, toInt_min] at h2
    omega
  unfold wordVal
  rw [if_neg hne, h1, Int.cast_natCast]
  rfl

theorem maxsi_bridge (n : Fin 8192 → ℕ) (hn : ∀ r, n r ≤ 8192) :
    ((((Finset.univ : Finset (Fin 8192)).fold Idealize.ShloMosaic.IntOp.maxsi 2147483648#32 (fun r => BitVec.ofNat 32 (n r))).toInt : ℝ) : EReal)
      = (Finset.univ : Finset (Fin 8192)).fold max ⊥ (fun r => ((n r : ℕ) : EReal)) := by
  have hom := fold_hom (op := IntOp.maxsi) (op' := max) (m := wordVal) (s := (univ : Finset (Fin 8192)))
    (b := 2147483648#32) (f := fun r => BitVec.ofNat 32 (n r)) wordVal_maxsi
  have hI : wordVal 2147483648#32 = ⊥ := by simp [wordVal]
  rw [hI] at hom
  have hfun : (fun r => wordVal (BitVec.ofNat 32 (n r))) = fun r => ((n r : ℕ) : EReal) :=
    funext fun r => wordVal_ofNat (n r) (hn r)
  rw [hfun] at hom
  rw [hom]
  have hF : univ.fold IntOp.maxsi 2147483648#32 (fun r => BitVec.ofNat 32 (n r)) ≠ 2147483648#32 := by
    intro h
    rw [h, hI] at hom
    have h0 : ((n ⟨0, by norm_num⟩ : ℕ) : EReal) ≤ ⊥ := by
      rw [← hom]
      exact (le_fold_max _).2 (Or.inr ⟨⟨0, by norm_num⟩, mem_univ _, le_rfl⟩)
    exact absurd h0 (not_le.2 (bot_lt_iff_ne_bot.2 (EReal.natCast_ne_bot _)))
  unfold wordVal
  rw [if_neg hF]

end Cert.RowStats

end
-- ==== Proof.Spec.lean ====
/-
  What both programs compute, as functions of the two input matrices on the extended reals.

  `simRow A B r j = ∑ k, A[r, k] · B[j, k]` is the similarity of row `r` of the left matrix with row `j` of the right one.
  Per row `r`: `posV` is the row's maximum, `negV` the sum of the entries strictly below it, and the number of such entries
  is `below`; `maxNegV` is the largest of those numbers over all rows. `tail` is the scalar both programs end with:
  the mean over rows of `min (neg, 30) − pos` plus the mean over rows of `max (pos − neg / maxNeg + 1, 0)`, written with the
  host operations both programs apply, so that the two results are the same term once the three inputs agree.
-/
import proofs.«124568_j35905926594960_1_alg».proof.Proof.RowStats
import Idealize.ShloMosaic.Lib.ValueIdx
import Idealize.ShloMosaic.PureOps.Ideal.Laws

noncomputable section

namespace Cert.Spec

open Idealize.ShloMosaic Idealize.ShloMosaic.ValueIdx Cert.RowStats

/-- The two matrix shapes' and the vector's and scalar's shapes, spelt as literals. -/
abbrev SMat : Shape := ⟨2, ![8192, 256]⟩
abbrev SVec : Shape := ⟨1, ![8192]⟩
abbrev SSca : Shape := ⟨0, ![]⟩

/-- Row `r` of the similarity matrix. -/
def simRow (A B : SMat.Idx → EReal) (r j : Fin 8192) : EReal := ∑ k : Fin 256, A (ix2 r k) * B (ix2 j k)

/-- The row maxima. -/
def posV (A B : SMat.Idx → EReal) : SVec.Idx → EReal := fun i => rowMax (simRow A B ⟨(i 0).val, (i 0).isLt⟩)

/-- Per row, the sum of the entries strictly below the row's maximum. -/
def negV (A B : SMat.Idx → EReal) : SVec.Idx → EReal := fun i => belowSum (simRow A B ⟨(i 0).val, (i 0).isLt⟩)

/-- The largest, over the rows, number of entries strictly below the row's maximum. -/
def maxNegV (A B : SMat.Idx → EReal) : SSca.Idx → EReal :=
  fun _ => (Finset.univ : Finset (Fin 8192)).fold max ⊥ (fun r => ((below (simRow A B r) : ℕ) : EReal))

/-- The closing scalar, as the host operations compute it from the three inputs. -/
def tail (hb : SSca.BroadcastsInDim SVec (![] : Fin 0 → Fin SVec.rank)) (hr : SVec.ReducesTo [0] SSca) (h0 : 0 < SSca.numel)
    (pos neg : FVec Ideal SVec .f32) (mx : FVec Ideal SSca .f32) : FVec Ideal SSca .f32 :=
  addf
    (Host.divf (F := Ideal)
      (Host.reduceAdd (F := Ideal)
        (subf (minimumf neg (broadcastInDim SVec ![] hb (constant (F := Ideal) SSca .f32 0x41F00000#32))) pos)
        (constant (F := Ideal) SSca .f32 0x00000000#32) hr h0)
      (constant (F := Ideal) SSca .f32 0x46000000#32))
    (Host.divf (F := Ideal)
      (Host.reduceAdd (F := Ideal)
        (maximumf
          (addf (subf pos (Host.divf (F := Ideal) neg (broadcastInDim SVec ![] hb mx)))
            (broadcastInDim SVec ![] hb (constant (F := Ideal) SSca .f32 0x3F800000#32)))
          (broadcastInDim SVec ![] hb (constant (F := Ideal) SSca .f32 0x00000000#32)))
        (constant (F := Ideal) SSca .f32 0x00000000#32) hr h0)
      (constant (F := Ideal) SSca .f32 0x46000000#32))

end Cert.Spec

end
-- ==== Proof.KBlocks.lean ====
/-
  The kernel's three output blocks at a row block's last tile, in terms of the two input matrices.

  Point `t` of the grid works on rows `2048 (t / 8) … 2048 (t / 8) + 2047` of the left matrix and on rows
  `1024 (t % 8) … + 1023` of the right matrix, so the similarity tile of row `p` at point `8 i + k` is tile `k` of row
  `2048 i + p` of the similarity matrix. After the eighth tile the running statistics are those of the whole row
  (`RowStats.run_M`, `run_neg`, `run_cnt`), and the output blocks hold the row's maximum, the sum of its entries below
  the maximum, and the number of those entries.
-/
import proofs.«124568_j35905926594960_1_alg».proof.Proof.KInv
import proofs.«124568_j35905926594960_1_alg».proof.Proof.RowStatsLaws
import proofs.«124568_j35905926594960_1_alg».proof.Proof.Spec

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Accum Cert.KernelIdeal.Payload Cert.KernelIdeal.Inv Cert.RowStats Cert.Spec

variable (m : (ℓ : Loc nD τ sig) → Buf (Elt Ideal) ℓ)

/-- The two matrices as the launch memory holds them. -/
abbrev matA (c : Dev nD) : SMat.Idx → EReal := m ((c : Thread nD τ).loc main_arg0)
abbrev matB (c : Dev nD) : SMat.Idx → EReal := m ((c : Thread nD τ).loc main_arg1)

/-- The block index of each window at each point, decided over the grid. -/
theorem idx_in : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-- The left block at point `t` holds rows `2048 (t / 8) + p` of the left matrix. -/
theorem X0_apply (c : Dev nD) (t : Fin cfg0.N) (p : Fin 2048) (k : Fin 256) (r : Fin 8192) (hr : r.val = 2048 * (t.val / 8) + p.val) :
    X0 m c t (ix2 p k) = matA m c (ix2 r k) := by
  obtain ⟨e0, e1, -, -⟩ := idx_in t
  unfold X0 iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * k.val = k.val; rw [e1]; omega

/-- The right block at point `t` holds rows `1024 (t % 8) + q` of the right matrix. -/
theorem X1_apply (c : Dev nD) (t : Fin cfg0.N) (q : Fin 1024) (k : Fin 256) (j : Fin 8192) (hj : j.val = 1024 * (t.val % 8) + q.val) :
    X1 m c t (ix2 q k) = matB m c (ix2 j k) := by
  obtain ⟨-, -, e0, e1⟩ := idx_in t
  unfold X1 iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * q.val = j.val; rw [e0, hj]; omega
  | ⟨1, _⟩ => show win0_1.index t (1 : Fin 2) * 256 + 1 * k.val = k.val; rw [e1]; omega

/-- The tile of row `p` at point `8 i + k` is tile `k` of row `2048 i + p` of the similarity matrix. -/
theorem tl_eq (c : Dev nD) (p : Fin 2048) (i k : ℕ) (hi : i < 4) (hk : k < 8) (r : Fin 8192) (hr : r.val = 2048 * i + p.val) :
    tl m c p (8 * i + k) = tile (simRow (matA m c) (matB m c) r) k := by
  have hN : cfg0.N = 32 := N_0
  have hn : 8 * i + k < cfg0.N := by rw [hN]; omega
  rw [tl_pos m c p (8 * i + k) hn]
  funext q
  unfold tile
  rw [dif_pos hk]
  unfold simT simRow
  refine Finset.sum_congr rfl fun kk _ => ?_
  rw [X0_apply m c ⟨8 * i + k, hn⟩ p kk r (by show r.val = 2048 * ((8 * i + k) / 8) + p.val; rw [hr]; omega),
    X1_apply m c ⟨8 * i + k, hn⟩ q kk ⟨1024 * k + q.val, by have := q.isLt; omega⟩
      (by show 1024 * k + q.val = 1024 * ((8 * i + k) % 8) + q.val; omega)]

/-- At a row block's last tile, the running statistics of row `p` are those of the whole row. -/
theorem acc_last (c : Dev nD) (t : Fin cfg0.N) (h7 : t.val % 8 = 7) (p : Fin 2048) (r : Fin 8192) (hr : r.val = 2048 * (t.val / 8) + p.val) :
    acc m c p t.val = run (tile (simRow (matA m c) (matB m c) r)) 7 := by
  have hN : cfg0.N = 32 := N_0
  have ht : t.val < 32 := hN ▸ t.isLt
  have e : t.val = 8 * (t.val / 8) + 7 := by omega
  rw [e, acc_run m c p (t.val / 8) 7 (by omega)]
  refine run_congr _ _ 7 fun j hj => ?_
  exact tl_eq m c p (t.val / 8) j (by omega) (by omega) r hr

/-- THE OUTPUT BLOCKS at a row block's last tile, row by row. -/
theorem outs_at (c : Dev nD) (hA : ∀ i, ∃ x : ℝ, matA m c i = (x : EReal)) (hB : ∀ i, ∃ x : ℝ, matB m c i = (x : EReal))
    (t : Fin cfg0.N) (h7 : t.val % 8 = 7) (p : Fin 2048) (u : Fin 1) (r : Fin 8192) (hr : r.val = 2048 * (t.val / 8) + p.val) :
    (outsAt0 m c t.val t.isLt).1 (ix2 p u) = rowMax (simRow (matA m c) (matB m c) r)
    ∧ (outsAt0 m c t.val t.isLt).2.1 (ix2 p u) = belowSum (simRow (matA m c) (matB m c) r)
    ∧ (outsAt0 m c t.val t.isLt).2.2.1 (ix2 p u) = ((below (simRow (matA m c) (matB m c) r) : ℕ) : EReal) := by
  have e := outs_last m c t h7
  obtain ⟨hM, hS, hC⟩ := scr_eq m c t.val t.isLt p u
  have hacc := acc_last m c t h7 p r hr
  have hf : ∀ j, ∃ x : ℝ, simRow (matA m c) (matB m c) r j = (x : EReal) := fun j => by
    unfold simRow
    choose a ha using hA
    choose b hb using hB
    refine ⟨∑ k : Fin 256, a (ix2 r k) * b (ix2 j k), ?_⟩
    rw [coe_sum]
    refine Finset.sum_congr rfl fun k _ => ?_
    rw [ha, hb, EReal.coe_mul]
  have e1 : (outsAt0 m c t.val t.isLt).1 = (scr m c t.val t.isLt).1 := congrArg Prod.fst e
  have e2 : (outsAt0 m c t.val t.isLt).2.1 = k0_pay3 (scr m c t.val t.isLt).2.1 (scr m c t.val t.isLt).2.2 (scr m c t.val t.isLt).1 :=
    congrArg (fun x => x.2.1) e
  have e3 : (outsAt0 m c t.val t.isLt).2.2.1 = k0_pay4 (scr m c t.val t.isLt).2.2 := congrArg (fun x => x.2.2) e
  refine ⟨?_, ?_, ?_⟩
  · rw [e1, hM, hacc, run_M]
  · rw [e2, pay3_apply, hS, hC, hM, hacc, run_neg _ hf]
  · rw [e3, pay4_apply, hC, hacc, run_cnt _ hf]

end Cert.KernelIdeal.Blocks

end
-- ==== Proof.KArrays.lean ====
/-
  The three arrays the kernel writes, as functions of the two input matrices.

  Each output array is written back in four row blocks, one at the last tile of each row block of the grid; the block
  written at point `t` is rows `2048 (t / 8) … + 2047`. Row by row the arrays end holding the row maximum of the
  similarity matrix, the sum of the row's entries strictly below the maximum, and the number of those entries.
-/
import proofs.«124568_j35905926594960_1_alg».proof.Proof.KBlocks
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Blocks Cert.RowStats Cert.Spec

variable (m : (ℓ : Loc nD τ sig) → Buf (Elt Ideal) ℓ)

/-- The number of a row's entries strictly below its maximum, as an extended real. -/
def belowCount (f : Fin 8192 → EReal) : EReal := ((below f : ℕ) : EReal)

/-- The three output arrays. -/
def G2 (c : Dev nD) : S8192x1.Idx → EReal := fun i => rowMax (simRow (matA m c) (matB m c) ⟨(i 0).val, (i 0).isLt⟩)
def G3 (c : Dev nD) : S8192x1.Idx → EReal := fun i => belowSum (simRow (matA m c) (matB m c) ⟨(i 0).val, (i 0).isLt⟩)
def G4 (c : Dev nD) : S8192x1.Idx → EReal := fun i => belowCount (simRow (matA m c) (matB m c) ⟨(i 0).val, (i 0).isLt⟩)

/-- The output windows' block indices, decided over the grid. -/
theorem idx_out2 : ∀ t : Fin cfg0.N, win0_2.index t (0 : Fin 2) = t.val / 8 ∧ win0_2.index t (1 : Fin 2) = 0 :=
  (by decide +kernel : ∀ t : Fin grid0.N, _)
theorem idx_out3 : ∀ t : Fin cfg0.N, win0_3.index t (0 : Fin 2) = t.val / 8 ∧ win0_3.index t (1 : Fin 2) = 0 :=
  (by decide +kernel : ∀ t : Fin grid0.N, _)
theorem idx_out4 : ∀ t : Fin cfg0.N, win0_4.index t (0 : Fin 2) = t.val / 8 ∧ win0_4.index t (1 : Fin 2) = 0 :=
  (by decide +kernel : ∀ t : Fin grid0.N, _)

/-! ## Output window 2 -/

theorem mem_blk2 (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0_0).slice (win0_2.rect t)).set ↔ _
  rw [View.set_slice_whole, Rect.mem_set_unit]
  exact Iff.rfl

/-- What a row block's last tile writes back is that row block of the row maxima. -/
theorem flushed2_eq (c : Dev nD) (hA : ∀ i, ∃ x : ℝ, matA m c i = (x : EReal)) (hB : ∀ i, ∃ x : ℝ, matB m c i = (x : EReal))
    (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hN : cfg0.N = 32 := N_0
  have ht : t.val < 32 := hN ▸ t.isLt
  obtain ⟨e0, -⟩ := idx_out2 t
  show (cfg0.win 2).cut (grid0.coords t) ((dats m 0 c).after 2 t) = _
  rw [after0_2]
  have key : ∀ (p : Fin 2048) (u : Fin 1),
      (outsAt0 m c t.val t.isLt).1 (ix2 p u) = G2 m c (((cfg0.win 2).blk t).view.emb (ix2 p u)) := fun p u => by
    refine ((outs_at m c hA hB t h7 p u ⟨2048 * (t.val / 8) + p.val, by omega⟩ rfl).1).trans ?_
    unfold G2
    refine congrArg (fun r => rowMax (simRow (matA m c) (matB m c) r)) (Fin.ext ?_)
    show 2048 * (t.val / 8) + p.val = win0_2.index t (0 : Fin 2) * 2048 + 1 * p.val
    rw [e0]; omega
  funext j
  show (outsAt0 m c t.val t.isLt).1 j = G2 m c (((cfg0.win 2).blk t).view.emb j)
  have hj : j = ix2 (j 0) (j 1) := eq_ix2 j
  rw [hj]
  exact key (j 0) (j 1)

/-- Every row is in the block of its row block's last tile. -/
theorem cover2 (c : Dev nD) (i : S8192x1.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 1 := (i 1).isLt
  have hlt : 8 * ((i 0).val / 2048) + 7 < cfg0.N := by rw [hN]; omega
  obtain ⟨e0, e1⟩ := idx_out2 ⟨8 * ((i 0).val / 2048) + 7, hlt⟩
  refine ⟨⟨8 * ((i 0).val / 2048) + 7, hlt⟩, (flush0_2 _).mpr (by show (8 * ((i 0).val / 2048) + 7) % 8 = 7; omega), ?_⟩
  rw [mem_blk2]
  intro a
  match a with
  | ⟨0, _⟩ =>
    show win0_2.index ⟨8 * ((i 0).val / 2048) + 7, hlt⟩ (0 : Fin 2) * 2048 ≤ (i 0).val
      ∧ (i 0).val < win0_2.index ⟨8 * ((i 0).val / 2048) + 7, hlt⟩ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_2.index ⟨8 * ((i 0).val / 2048) + 7, hlt⟩ (1 : Fin 2) * 1 ≤ (i 1).val
      ∧ (i 1).val < win0_2.index ⟨8 * ((i 0).val / 2048) + 7, hlt⟩ (1 : Fin 2) * 1 + 1
    rw [e1]
    omega

/-- So the array ends holding the row maxima. -/
theorem final2 (c : Dev nD) (hA : ∀ i, ∃ x : ℝ, matA m c i = (x : EReal)) (hB : ∀ i, ∃ x : ℝ, matB m c i = (x : EReal)) :
    (dats m 0 c).arrAt 2 cfg0.N = G2 m c :=
  (dats m 0 c).arrAt_eq_of_cover 2 (G2 m c) (flushed2_eq m c hA hB) (cover2 c)

/-! ## Output window 3 -/

theorem mem_blk3 (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v0_1).slice (win0_3.rect t)).set ↔ _
  rw [View.set_slice_whole, Rect.mem_set_unit]
  exact Iff.rfl

/-- What a row block's last tile writes back is that row block of the sums below the maxima. -/
theorem flushed3_eq (c : Dev nD) (hA : ∀ i, ∃ x : ℝ, matA m c i = (x : EReal)) (hB : ∀ i, ∃ x : ℝ, matB m c i = (x : EReal))
    (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hN : cfg0.N = 32 := N_0
  have ht : t.val < 32 := hN ▸ t.isLt
  obtain ⟨e0, -⟩ := idx_out3 t
  show (cfg0.win 3).cut (grid0.coords t) ((dats m 0 c).after 3 t) = _
  rw [after0_3]
  have key : ∀ (p : Fin 2048) (u : Fin 1),
      (outsAt0 m c t.val t.isLt).2.1 (ix2 p u) = G3 m c (((cfg0.win 3).blk t).view.emb (ix2 p u)) := fun p u => by
    refine ((outs_at m c hA hB t h7 p u ⟨2048 * (t.val / 8) + p.val, by omega⟩ rfl).2.1).trans ?_
    unfold G3
    refine congrArg (fun r => belowSum (simRow (matA m c) (matB m c) r)) (Fin.ext ?_)
    show 2048 * (t.val / 8) + p.val = win0_3.index t (0 : Fin 2) * 2048 + 1 * p.val
    rw [e0]; omega
  funext j
  show (outsAt0 m c t.val t.isLt).2.1 j = G3 m c (((cfg0.win 3).blk t).view.emb j)
  have hj : j = ix2 (j 0) (j 1) := eq_ix2 j
  rw [hj]
  exact key (j 0) (j 1)

/-- Every row is in the block of its row block's last tile. -/
theorem cover3 (c : Dev nD) (i : S8192x1.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 1 := (i 1).isLt
  have hlt : 8 * ((i 0).val / 2048) + 7 < cfg0.N := by rw [hN]; omega
  obtain ⟨e0, e1⟩ := idx_out3 ⟨8 * ((i 0).val / 2048) + 7, hlt⟩
  refine ⟨⟨8 * ((i 0).val / 2048) + 7, hlt⟩, (flush0_3 _).mpr (by show (8 * ((i 0).val / 2048) + 7) % 8 = 7; omega), ?_⟩
  rw [mem_blk3]
  intro a
  match a with
  | ⟨0, _⟩ =>
    show win0_3.index ⟨8 * ((i 0).val / 2048) + 7, hlt⟩ (0 : Fin 2) * 2048 ≤ (i 0).val
      ∧ (i 0).val < win0_3.index ⟨8 * ((i 0).val / 2048) + 7, hlt⟩ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_3.index ⟨8 * ((i 0).val / 2048) + 7, hlt⟩ (1 : Fin 2) * 1 ≤ (i 1).val
      ∧ (i 1).val < win0_3.index ⟨8 * ((i 0).val / 2048) + 7, hlt⟩ (1 : Fin 2) * 1 + 1
    rw [e1]
    omega

/-- So the array ends holding the sums below the maxima. -/
theorem final3 (c : Dev nD) (hA : ∀ i, ∃ x : ℝ, matA m c i = (x : EReal)) (hB : ∀ i, ∃ x : ℝ, matB m c i = (x : EReal)) :
    (dats m 0 c).arrAt 3 cfg0.N = G3 m c :=
  (dats m 0 c).arrAt_eq_of_cover 3 (G3 m c) (flushed3_eq m c hA hB) (cover3 c)

/-! ## Output window 4 -/

theorem mem_blk4 (t : Fin cfg0.N) (i : S8192x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v0_2).slice (win0_4.rect t)).set ↔ _
  rw [View.set_slice_whole, Rect.mem_set_unit]
  exact Iff.rfl

/-- What a row block's last tile writes back is that row block of the counts below the maxima. -/
theorem flushed4_eq (c : Dev nD) (hA : ∀ i, ∃ x : ℝ, matA m c i = (x : EReal)) (hB : ∀ i, ∃ x : ℝ, matB m c i = (x : EReal))
    (t : Fin cfg0.N) (hf : (cfg0.win 4).flush t = true) :
    (dats m 0 c).flushed 4 t = ((cfg0.win 4).blk t).view.read (Elt Ideal) (G4 m c) := by
  have h7 : t.val % 8 = 7 := (flush0_4 t).mp hf
  have hN : cfg0.N = 32 := N_0
  have ht : t.val < 32 := hN ▸ t.isLt
  obtain ⟨e0, -⟩ := idx_out4 t
  show (cfg0.win 4).cut (grid0.coords t) ((dats m 0 c).after 4 t) = _
  rw [after0_4]
  have key : ∀ (p : Fin 2048) (u : Fin 1),
      (outsAt0 m c t.val t.isLt).2.2.1 (ix2 p u) = G4 m c (((cfg0.win 4).blk t).view.emb (ix2 p u)) := fun p u => by
    refine ((outs_at m c hA hB t h7 p u ⟨2048 * (t.val / 8) + p.val, by omega⟩ rfl).2.2).trans ?_
    unfold G4
    refine congrArg (fun r => belowCount (simRow (matA m c) (matB m c) r)) (Fin.ext ?_)
    show 2048 * (t.val / 8) + p.val = win0_4.index t (0 : Fin 2) * 2048 + 1 * p.val
    rw [e0]; omega
  funext j
  show (outsAt0 m c t.val t.isLt).2.2.1 j = G4 m c (((cfg0.win 4).blk t).view.emb j)
  have hj : j = ix2 (j 0) (j 1) := eq_ix2 j
  rw [hj]
  exact key (j 0) (j 1)

/-- Every row is in the block of its row block's last tile. -/
theorem cover4 (c : Dev nD) (i : S8192x1.Idx) :
    ∃ t : Fin cfg0.N, (cfg0.win 4).flush t = true ∧ i ∈ ((cfg0.win 4).blk t).view.set := by
  have hN : cfg0.N = 32 := N_0
  have hi0 : (i 0).val < 8192 := (i 0).isLt
  have hi1 : (i 1).val < 1 := (i 1).isLt
  have hlt : 8 * ((i 0).val / 2048) + 7 < cfg0.N := by rw [hN]; omega
  obtain ⟨e0, e1⟩ := idx_out4 ⟨8 * ((i 0).val / 2048) + 7, hlt⟩
  refine ⟨⟨8 * ((i 0).val / 2048) + 7, hlt⟩, (flush0_4 _).mpr (by show (8 * ((i 0).val / 2048) + 7) % 8 = 7; omega), ?_⟩
  rw [mem_blk4]
  intro a
  match a with
  | ⟨0, _⟩ =>
    show win0_4.index ⟨8 * ((i 0).val / 2048) + 7, hlt⟩ (0 : Fin 2) * 2048 ≤ (i 0).val
      ∧ (i 0).val < win0_4.index ⟨8 * ((i 0).val / 2048) + 7, hlt⟩ (0 : Fin 2) * 2048 + 2048
    rw [e0]
    show (8 * ((i 0).val / 2048) + 7) / 8 * 2048 ≤ (i 0).val ∧ (i 0).val < (8 * ((i 0).val / 2048) + 7) / 8 * 2048 + 2048
    omega
  | ⟨1, _⟩ =>
    show win0_4.index ⟨8 * ((i 0).val / 2048) + 7, hlt⟩ (1 : Fin 2) * 1 ≤ (i 1).val
      ∧ (i 1).val < win0_4.index ⟨8 * ((i 0).val / 2048) + 7, hlt⟩ (1 : Fin 2) * 1 + 1
    rw [e1]
    omega

/-- So the array ends holding the counts below the maxima. -/
theorem final4 (c : Dev nD) (hA : ∀ i, ∃ x : ℝ, matA m c i = (x : EReal)) (hB : ∀ i, ∃ x : ℝ, matB m c i = (x : EReal)) :
    (dats m 0 c).arrAt 4 cfg0.N = G4 m c :=
  (dats m 0 c).arrAt_eq_of_cover 4 (G4 m c) (flushed4_eq m c hA hB) (cover4 c)

end Cert.KernelIdeal.Arrays

end
-- ==== Proof.KTail.lean ====
/-
  The host operations after the kernel, as one function of the three arrays the kernel wrote.

  After the region the program reshapes the three [8192, 1] outputs to vectors, takes the maximum of the third, and
  computes the closing scalar. Over any contents of the buffers, the result buffer after these lines holds
  `Spec.tail` of the first two reshaped outputs and of the maximum of the third. The lines come in three stretches
  (the middle one is the rectifier's three operations); each is read over arbitrary contents and the three are composed.
-/
import proofs.«124568_j35905926594960_1_alg».proof.Proof.Gen.KernelIdeal.Launch
import proofs.«124568_j35905926594960_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.Tail

open Cert.KernelIdeal Cert.KernelIdeal.Gen

/-- Two stretches of lines one after the other. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op ops ih => exact ih (op.result W)

/-- The three reshaped outputs and the largest entry of the third, from contents `W`. -/
abbrev posW (W : Valuation τ sig (Elt Ideal)) : FVec Ideal S8192 .f32 :=
  shapeCast S8192 (W (Proc.devRef .tc main_v0_0) : (⟨S8192x1, .f32⟩ : BufTy).Contents (Elt Ideal)) shapeCasts_S8192x1_S8192
abbrev negW (W : Valuation τ sig (Elt Ideal)) : FVec Ideal S8192 .f32 :=
  shapeCast S8192 (W (Proc.devRef .tc main_v0_1) : (⟨S8192x1, .f32⟩ : BufTy).Contents (Elt Ideal)) shapeCasts_S8192x1_S8192
abbrev cntW (W : Valuation τ sig (Elt Ideal)) : FVec Ideal S8192 .f32 :=
  shapeCast S8192 (W (Proc.devRef .tc main_v0_2) : (⟨S8192x1, .f32⟩ : BufTy).Contents (Elt Ideal)) shapeCasts_S8192x1_S8192
abbrev maxW (W : Valuation τ sig (Elt Ideal)) : FVec Ideal S_ .f32 :=
  Host.reduce (FloatOps.maximumf (F := Ideal) (φ := .f32)) (cntW W) (constant (F := Ideal) S_ .f32 0xFF800000#32) reducesTo_S8192_S_d0 h_S_

/-- After the first stretch: the first mean. -/
theorem seg1_v9 (W : Valuation τ sig (Elt Ideal)) :
    (StableHlo.after hostOps1 W (Proc.devRef .tc main_v9) : (⟨S_, .f32⟩ : BufTy).Contents (Elt Ideal))
      = Host.divf (F := Ideal)
          (Host.reduceAdd (F := Ideal)
            (subf (minimumf (negW W) (broadcastInDim S8192 ![] bcast_S_S8192 (constant (F := Ideal) S_ .f32 0x41F00000#32))) (posW W))
            (constant (F := Ideal) S_ .f32 0x00000000#32) reducesTo_S8192_S_d0 h_S_)
          (constant (F := Ideal) S_ .f32 0x46000000#32) := by
  dsimp only [hostOps1]
  after_results
  rfl

/-- After the first stretch: the second mean's summands before the rectifier. -/
theorem seg1_v14 (W : Valuation τ sig (Elt Ideal)) :
    (StableHlo.after hostOps1 W (Proc.devRef .tc main_v14) : (⟨S8192, .f32⟩ : BufTy).Contents (Elt Ideal))
      = addf (subf (posW W) (Host.divf (F := Ideal) (negW W) (broadcastInDim S8192 ![] bcast_S_S8192 (maxW W))))
          (broadcastInDim S8192 ![] bcast_S_S8192 (constant (F := Ideal) S_ .f32 0x3F800000#32)) := by
  dsimp only [hostOps1]
  after_results
  rfl

/-- The rectifier's stretch leaves the first mean alone -/
theorem seg2_v9 (W : Valuation τ sig (Elt Ideal)) :
    StableHlo.after hostOps1_1 W (Proc.devRef .tc main_v9) = W (Proc.devRef .tc main_v9) := by
  dsimp only [hostOps1_1]
  after_results

/-- and clamps the summands at zero from below. -/
theorem seg2_v15 (W : Valuation τ sig (Elt Ideal)) :
    (StableHlo.after hostOps1_1 W (Proc.devRef .tc main_v15) : (⟨S8192, .f32⟩ : BufTy).Contents (Elt Ideal))
      = maximumf (W (Proc.devRef .tc main_v14) : (⟨S8192, .f32⟩ : BufTy).Contents (Elt Ideal))
          (broadcastInDim S8192 ![] bcast_S_S8192 (constant (F := Ideal) S_ .f32 0x00000000#32)) := by
  dsimp only [hostOps1_1]
  after_results
  simp only [TRef.toBuf, TRef.ofBuf, cast_eq]

/-- The last stretch: the second mean, added to the first. -/
theorem seg3_v18 (W : Valuation τ sig (Elt Ideal)) :
    (StableHlo.after hostOps1_2 W (Proc.devRef .tc main_v18) : (⟨S_, .f32⟩ : BufTy).Contents (Elt Ideal))
      = addf (W (Proc.devRef .tc main_v9) : (⟨S_, .f32⟩ : BufTy).Contents (Elt Ideal))
          (Host.divf (F := Ideal)
            (Host.reduceAdd (F := Ideal) (W (Proc.devRef .tc main_v15) : (⟨S8192, .f32⟩ : BufTy).Contents (Elt Ideal))
              (constant (F := Ideal) S_ .f32 0x00000000#32) reducesTo_S8192_S_d0 h_S_)
            (constant (F := Ideal) S_ .f32 0x46000000#32)) := by
  dsimp only [hostOps1_2]
  after_results

/-- THE TAIL: the result buffer after the three stretches, from any contents at the region's exit. -/
theorem tail_of (W : Valuation τ sig (Elt Ideal)) :
    (StableHlo.after (List.flatten [hostOps1, hostOps1_1, hostOps1_2]) W (Proc.devRef .tc main_v18) : (⟨S_, .f32⟩ : BufTy).Contents (Elt Ideal))
      = Cert.Spec.tail bcast_S_S8192 reducesTo_S8192_S_d0 h_S_ (posW W) (negW W) (maxW W) := by
  show (StableHlo.after (hostOps1 ++ (hostOps1_1 ++ (hostOps1_2 ++ []))) W (Proc.devRef .tc main_v18) : (⟨S_, .f32⟩ : BufTy).Contents (Elt Ideal)) = _
  rw [List.append_nil, after_append, after_append, seg3_v18, seg2_v9, seg2_v15, seg1_v9, seg1_v14]
  rfl

end Cert.KernelIdeal.Tail

end
-- ==== Proof.LibUnitAxes.lean ====
/-
  Shape casts that only add or remove axes of size one, read at an index by coordinates: a matrix seen as a
  `[1, 1, a, b]` array and back, and a column `[a, 1]` seen as the vector `[a]`. The row-major position of an index
  does not see a coordinate that can only be zero, so each cast reads its operand at the same remaining coordinates.
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a, 1]` column cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibUnitAxes

end
-- ==== Proof.KRun.lean ====
/-
  The kernel program's run, read: its result is the closing scalar of the row maxima, the masked row sums and the
  largest count.

  The three arrays the region leaves (`Arrays.final2 … final4`) are reshaped to vectors by the lines after the region;
  the reshaped row maxima and masked sums are `Spec.posV` and `Spec.negV`, and the maximum over the rows of the counts is
  `Spec.maxNegV`; the remaining lines are `Spec.tail` of those three (`Tail.tail_of`).
-/
import proofs.«124568_j35905926594960_1_alg».proof.Proof.KArrays
import proofs.«124568_j35905926594960_1_alg».proof.Proof.KTail
import proofs.«124568_j35905926594960_1_alg».proof.Proof.LibUnitAxes

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Blocks Cert.KernelIdeal.Arrays Cert.KernelIdeal.Tail Cert.RowStats Cert.Spec Cert.KConsts

variable (m : (ℓ : Loc nD τ sig) → Buf (Elt Ideal) ℓ) (ρ : Dev nD → PrngReg)

/-- A vector index is its one coordinate. -/
def vecEquiv : Fin 8192 ≃ S8192.Idx where
  toFun := ix1
  invFun i := i 0
  left_inv _ := rfl
  right_inv i := (eq_ix1 i).symm

/-- A fold over the vector's indices is the fold over its coordinates. -/
theorem fold_vec {β : Type} (op : β → β → β) [Std.Commutative op] [Std.Associative op] (b : β) (g : S8192.Idx → β) :
    (Finset.univ : Finset S8192.Idx).fold op b g = (Finset.univ : Finset (Fin 8192)).fold op b (fun r => g (ix1 r)) := by
  rw [← Finset.map_univ_equiv vecEquiv, Finset.fold_map]
  rfl

/-- The reshaped first output is the vector of row maxima. -/
theorem pos_eq (c : Dev nD) : shapeCast S8192 (G2 m c) shapeCasts_S8192x1_S8192 = posV (matA m c) (matB m c) := by
  funext i
  obtain ⟨r, rfl⟩ : ∃ r : Fin 8192, i = ix1 r := ⟨i 0, eq_ix1 i⟩
  exact (Cert.LibUnitAxes.shapeCast_a1_a_apply (G2 m c) shapeCasts_S8192x1_S8192 r).trans rfl

/-- The reshaped second output is the vector of masked row sums. -/
theorem neg_eq (c : Dev nD) : shapeCast S8192 (G3 m c) shapeCasts_S8192x1_S8192 = negV (matA m c) (matB m c) := by
  funext i
  obtain ⟨r, rfl⟩ : ∃ r : Fin 8192, i = ix1 r := ⟨i 0, eq_ix1 i⟩
  exact (Cert.LibUnitAxes.shapeCast_a1_a_apply (G3 m c) shapeCasts_S8192x1_S8192 r).trans rfl

/-- The maximum over the rows of the reshaped third output is the largest count. -/
theorem max_eq (c : Dev nD) :
    Host.reduce (FloatOps.maximumf (F := Ideal) (φ := .f32)) (shapeCast S8192 (G4 m c) shapeCasts_S8192x1_S8192)
      (constant (F := Ideal) S_ .f32 0xFF800000#32) reducesTo_S8192_S_d0 h_S_ = maxNegV (matA m c) (matB m c) := by
  funext i
  rw [Host.reduce_eq_fold, Finset.filter_true_of_mem (fun j _ => funext fun b => b.elim0), fold_vec]
  show (Finset.univ : Finset (Fin 8192)).fold max (Ideal.ofBits .f32 0xFF800000#32)
    (fun r => shapeCast S8192 (G4 m c) shapeCasts_S8192x1_S8192 (ix1 r)) = _
  rw [neginf_f32]
  unfold maxNegV
  refine congrArg (fun f => Finset.fold max ⊥ f (Finset.univ : Finset (Fin 8192))) (funext fun r => ?_)
  exact (Cert.LibUnitAxes.shapeCast_a1_a_apply (G4 m c) shapeCasts_S8192x1_S8192 r).trans rfl

/-- The result buffer is one the region does not stage. -/
theorem v18_rest : main_v18 ∈ Pipeline.restRefs sig cfg0.spec := by decide

/-- THE RUN, READ: the result is the closing scalar of the specification's three inputs; the arguments are unchanged. -/
theorem run (hA : ∀ c i, ∃ x : ℝ, matA m c i = (x : EReal)) (hB : ∀ c i, ∃ x : ℝ, matB m c i = (x : EReal)) :
    θ_run defs (onTc (τ := τ) (main (F := Ideal))) ⟨m, fun _ => 0, ρ⟩ fun r => ∀ c : Dev nD,
      r.2.mem ((c : Thread nD τ).loc main_v18)
        = Cert.Spec.tail bcast_S_S8192 reducesTo_S8192_S_d0 h_S_ (posV (matA m c) (matB m c)) (negV (matA m c) (matB m c))
            (maxNegV (matA m c) (matB m c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · refine ((h c).2 main_v18 v18_rest).trans ?_
    unfold Pipeline.afterTail₀
    refine (tail_of _).trans ?_
    have w2 := (Pipeline.withArrays_arr spec0 launch0.win.arr_inj c (V0 m c) (fun w => (dats m 0 c).arrAt w cfg0.N) 2).trans (final2 m c (hA c) (hB c))
    have w3 := (Pipeline.withArrays_arr spec0 launch0.win.arr_inj c (V0 m c) (fun w => (dats m 0 c).arrAt w cfg0.N) 3).trans (final3 m c (hA c) (hB c))
    have w4 := (Pipeline.withArrays_arr spec0 launch0.win.arr_inj c (V0 m c) (fun w => (dats m 0 c).arrAt w cfg0.N) 4).trans (final4 m c (hA c) (hB c))
    unfold posW negW maxW cntW
    rw [show (Pipeline.withArrays spec0 c (V0 m c) (fun w => (dats m 0 c).arrAt w cfg0.N) (Proc.devRef .tc main_v0_0)) = G2 m c from w2,
      show (Pipeline.withArrays spec0 c (V0 m c) (fun w => (dats m 0 c).arrAt w cfg0.N) (Proc.devRef .tc main_v0_1)) = G3 m c from w3,
      show (Pipeline.withArrays spec0 c (V0 m c) (fun w => (dats m 0 c).arrAt w cfg0.N) (Proc.devRef .tc main_v0_2)) = G4 m c from w4,
      pos_eq, neg_eq, max_eq]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Run

end
-- ==== Proof.RefSide.lean ====
/-
  The reference program's result, at the ideal values, is the closing scalar of the three specification inputs.

  The similarity matrix. Entry (r, j) of the program's matrix is the quotient by the constant one of the sum over k
  of x0[r, k] times the transpose of x1 at (k, j); the word 0x3F800000 is the real 1 and a / 1 = a, so the entry is
  simRow x0 x1 r j = ∑ k, x0[r, k] · x1[j, k].

  The row maximum. The reduce over axis 1 with body max, from the word 0xFF800000 = ⊥, is at row r the fold of max
  from ⊥ over the 8192 columns of the row: rowMax (simRow x0 x1 r).

  The masked sum. The comparison bit of entry (r, k) is 1 exactly when the entry is strictly below its row's maximum
  (the maximum reaches the entry through two broadcasts, which read it back at row r); the select keeps such an entry
  and replaces the others by the zero word's 0; the float sum over axis 1 from 0 is then belowSum (simRow x0 x1 r).

  The count. The comparison bits, widened to 32-bit words and summed over axis 1 from the zero word, give the word of
  the number of entries of row r below the row's maximum (a fold of word addition over 0/1 words counts); the signed
  maximum over the rows from the word -2^31, read as a signed integer and then as a real, is the fold of max from ⊥
  of those numbers, because each is at most 8192 and there is at least one row.

  Assembling. Below these three values the program applies, operation by operation, exactly the host operations the
  closing scalar is written with, so the result is the closing scalar of the three values.
-/
import proofs.«124568_j35905926594960_1_alg».proof.Proof.Gen.ReferenceIdeal.Read
import proofs.«124568_j35905926594960_1_alg».proof.Proof.Spec
import proofs.«124568_j35905926594960_1_alg».proof.Proof.RowStatsLaws
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic
  Idealize.ShloMosaic.ValueIdx Cert.RowStats Cert.Spec

/-! ### The similarity matrix -/

/-- The word 0x3F800000 is the real one. -/
theorem ofBits_one_f32 : Ideal.ofBits .f32 0x3F800000#32 = 1 := by
  simp [Ideal.ofBits, Ideal.ieee, -EReal.coe_mul]; norm_num

/-- The word 0xFF800000 is ⊥. -/
theorem ofBits_bot_f32 : Ideal.ofBits .f32 0xFF800000#32 = ⊥ := by
  simp [Ideal.ofBits, Ideal.ieee]

/-- Dividing by one changes nothing. -/
theorem div_one' (a : EReal) : Ideal.div a 1 = a := by
  have h := Ideal.div_coe (y := 1) one_ne_zero a
  rw [EReal.coe_one] at h
  rw [h]
  norm_num

theorem v3_apply (x0 x1 : (⟨S8192x256, .f32⟩ : BufTy).Contents (Elt Ideal)) (r j : Fin 8192) :
    val_main_v3 (F := Ideal) x0 x1 (ix2 r j) = simRow x0 x1 r j := by
  rw [val_main_v3_apply, Ideal.hostDivf_def, val_main_v2_apply, val_main_cst_apply, Ideal.ofBits_def,
    ofBits_one_f32, div_one', val_main_v1_apply]
  unfold simRow
  refine Finset.sum_congr rfl fun k _ => ?_
  rw [val_main_v0_apply]
  have e1 : lidx_main_v1 (ix2 r j) k = ix2 r k :=
    funext fun a => Fin.ext (by match a with | ⟨0, _⟩ => rfl | ⟨1, _⟩ => rfl)
  have e2 : idx_main_v0 (ridx_main_v1 (ix2 r j) k) = ix2 j k :=
    funext fun a => Fin.ext (by match a with | ⟨0, _⟩ => rfl | ⟨1, _⟩ => rfl)
  rw [e1, e2]

/-! ### The three reductions -/

theorem reduces_mat_row : S8192x8192.Reduces [1] S8192 := by decide

/-- Row r with the column k put back is the matrix index (r, k). -/
theorem lift_row (r k : Fin 8192) : reduces_mat_row.lift (ix1 r) k = ix2 r k :=
  funext fun a => Fin.ext (by match a with | ⟨0, _⟩ => rfl | ⟨1, _⟩ => rfl)

/-- The row maximum of the similarity matrix. -/
theorem v4_apply (x0 x1 : (⟨S8192x256, .f32⟩ : BufTy).Contents (Elt Ideal)) (r : Fin 8192) :
    val_main_v4 (F := Ideal) x0 x1 (ix1 r) = rowMax (simRow x0 x1 r) := by
  unfold val_main_v4
  refine (Host.reduce_eq_fold_single (FloatOps.maximumf (F := Ideal) (φ := .f32)) _ _
    reducesTo_S8192x8192_S8192_d1 reduces_mat_row h_S_ (ix1 r)).trans ?_
  rw [val_main_cst_0_apply, Ideal.ofBits_def, ofBits_bot_f32]
  show (Finset.univ : Finset (Fin 8192)).fold max ⊥
    (fun k : Fin 8192 => val_main_v3 (F := Ideal) x0 x1 (reduces_mat_row.lift (ix1 r) k)) = _
  have e : (fun k : Fin 8192 => val_main_v3 (F := Ideal) x0 x1 (reduces_mat_row.lift (ix1 r) k))
      = simRow x0 x1 r :=
    funext fun k => by rw [lift_row r k, v3_apply]
  rw [e]
  rfl

theorem v4_eq (x0 x1 : (⟨S8192x256, .f32⟩ : BufTy).Contents (Elt Ideal)) :
    val_main_v4 (F := Ideal) x0 x1 = Cert.Spec.posV x0 x1 := by
  funext i
  obtain ⟨r, rfl⟩ : ∃ r : Fin 8192, i = ix1 r := ⟨i 0, eq_ix1 i⟩
  exact v4_apply x0 x1 r

/-- The comparison bit of entry (r, k): is it strictly below its row's maximum. -/
theorem v7_apply (x0 x1 : (⟨S8192x256, .f32⟩ : BufTy).Contents (Elt Ideal)) (r k : Fin 8192) :
    val_main_v7 (F := Ideal) x0 x1 (ix2 r k)
      = BitVec.ofBool (decide (simRow x0 x1 r k < rowMax (simRow x0 x1 r))) := by
  rw [val_main_v7_apply, Ideal.cmpf_def, v3_apply, val_main_v6_apply, val_main_v5_apply]
  have e : idx_main_v5 (idx_main_v6 (ix2 r k)) = ix1 r :=
    funext fun a => Fin.ext (by match a with | ⟨0, _⟩ => rfl)
  rw [e, v4_apply]
  rfl

/-- The masked entry: itself when below the row maximum, else zero. -/
theorem v9_apply (x0 x1 : (⟨S8192x256, .f32⟩ : BufTy).Contents (Elt Ideal)) (r k : Fin 8192) :
    val_main_v9 (F := Ideal) x0 x1 (ix2 r k)
      = if simRow x0 x1 r k < rowMax (simRow x0 x1 r) then simRow x0 x1 r k else 0 := by
  rw [val_main_v9_apply, v7_apply, v3_apply, val_main_v8_apply, val_main_cst_1_apply, Ideal.ofBits_def,
    Ideal.ofBits_zero_f32]
  by_cases h : simRow x0 x1 r k < rowMax (simRow x0 x1 r)
  · rw [if_pos h, decide_eq_true h]
    exact select_one _ _
  · rw [if_neg h, decide_eq_false h]
    exact select_zero _ _

theorem v10_apply (x0 x1 : (⟨S8192x256, .f32⟩ : BufTy).Contents (Elt Ideal)) (r : Fin 8192) :
    val_main_v10 (F := Ideal) x0 x1 (ix1 r) = belowSum (simRow x0 x1 r) := by
  rw [val_main_v10_apply, val_main_cst_2_apply, Ideal.ofBits_def, Ideal.ofBits_zero_f32, zero_add]
  unfold belowSum
  refine Finset.sum_congr rfl fun k _ => ?_
  have e : idx_main_v10 (ix1 r) k = ix2 r k :=
    funext fun a => Fin.ext (by match a with | ⟨0, _⟩ => rfl | ⟨1, _⟩ => rfl)
  rw [e, v9_apply]

theorem v10_eq (x0 x1 : (⟨S8192x256, .f32⟩ : BufTy).Contents (Elt Ideal)) :
    val_main_v10 (F := Ideal) x0 x1 = Cert.Spec.negV x0 x1 := by
  funext i
  obtain ⟨r, rfl⟩ : ∃ r : Fin 8192, i = ix1 r := ⟨i 0, eq_ix1 i⟩
  exact v10_apply x0 x1 r

/-- The number of entries of row r below the row's maximum, as a 32-bit word. -/
theorem v12_apply (x0 x1 : (⟨S8192x256, .f32⟩ : BufTy).Contents (Elt Ideal)) (r : Fin 8192) :
    val_main_v12 (F := Ideal) x0 x1 (ix1 r) = BitVec.ofNat 32 (below (simRow x0 x1 r)) := by
  unfold val_main_v12
  refine (Host.reduce_eq_fold_single IntOp.addi _ _
    reducesTo_S8192x8192_S8192_d1 reduces_mat_row h_S_ (ix1 r)).trans ?_
  rw [val_main_c_apply]
  show (Finset.univ : Finset (Fin 8192)).fold IntOp.addi 0#32
    (fun k : Fin 8192 => val_main_v11 (F := Ideal) x0 x1 (reduces_mat_row.lift (ix1 r) k)) = _
  have e : (fun k : Fin 8192 => val_main_v11 (F := Ideal) x0 x1 (reduces_mat_row.lift (ix1 r) k))
      = fun k => (BitVec.ofBool (decide (simRow x0 x1 r k < rowMax (simRow x0 x1 r)))).setWidth 32 :=
    funext fun k => by rw [lift_row r k, val_main_v11_apply, v7_apply]
  rw [e]
  exact addi_count (fun k => simRow x0 x1 r k < rowMax (simRow x0 x1 r))

/-- A vector index is its one coordinate. -/
def vecEquiv : Fin 8192 ≃ S8192.Idx where
  toFun := ix1
  invFun i := i 0
  left_inv _ := rfl
  right_inv i := (eq_ix1 i).symm

/-- A fold over the vector's indices is the fold over its coordinates. -/
theorem fold_vec {β : Type} (op : β → β → β) [Std.Commutative op] [Std.Associative op] (b : β)
    (g : S8192.Idx → β) :
    (Finset.univ : Finset S8192.Idx).fold op b g
      = (Finset.univ : Finset (Fin 8192)).fold op b (fun r => g (ix1 r)) := by
  rw [← Finset.map_univ_equiv vecEquiv, Finset.fold_map]
  rfl

/-- The largest count over the rows, as an extended real. -/
theorem v14_apply (x0 x1 : (⟨S8192x256, .f32⟩ : BufTy).Contents (Elt Ideal)) (i : S_.Idx) :
    val_main_v14 (F := Ideal) x0 x1 i = Cert.Spec.maxNegV x0 x1 i := by
  rw [val_main_v14_apply]
  show ((((val_main_v13 (F := Ideal) x0 x1 i).toInt : ℝ)) : EReal) = _
  unfold val_main_v13
  rw [Host.reduce_eq_fold, val_main_c_3_apply,
    Finset.filter_true_of_mem (fun j _ => funext fun b => b.elim0),
    fold_vec]
  have e : (fun r : Fin 8192 => val_main_v12 (F := Ideal) x0 x1 (ix1 r))
      = fun r => BitVec.ofNat 32 (below (simRow x0 x1 r)) :=
    funext fun r => v12_apply x0 x1 r
  rw [e]
  exact maxsi_bridge (fun r => below (simRow x0 x1 r)) (fun r => below_le _)

theorem v14_eq (x0 x1 : (⟨S8192x256, .f32⟩ : BufTy).Contents (Elt Ideal)) :
    val_main_v14 (F := Ideal) x0 x1 = Cert.Spec.maxNegV x0 x1 :=
  funext fun i => v14_apply x0 x1 i

/-! ### Assembling -/

theorem v28_eq_tail (x0 x1 : (⟨S8192x256, .f32⟩ : BufTy).Contents (Elt Ideal)) :
    val_main_v28 (F := Ideal) x0 x1
      = Cert.Spec.tail bcast_S_S8192 reducesTo_S8192_S_d0 h_S_ (val_main_v4 (F := Ideal) x0 x1)
          (val_main_v10 (F := Ideal) x0 x1) (val_main_v14 (F := Ideal) x0 x1) := by
  unfold val_main_v28 val_main_v27 val_main_v26 val_main_v25 val_main_v24 val_main_v23 val_main_v22 val_main_v21
    val_main_v20 val_main_v19 val_main_v18 val_main_v17 val_main_v16 val_main_v15 val_main_call1_v0
    val_main_call1_cst val_main_cst_9 val_main_cst_8 val_main_cst_7 val_main_cst_6 val_main_cst_5 val_main_cst_4
    Cert.Spec.tail
  rfl

/-- The reference program's result is the closing scalar of the row maxima, the masked row sums and the largest
    count. -/
theorem result_eq (x0 x1 : (⟨S8192x256, .f32⟩ : BufTy).Contents (Elt Ideal))
    (h0 : ∀ i, ∃ r : ℝ, x0 i = (r : EReal)) (h1 : ∀ i, ∃ r : ℝ, x1 i = (r : EReal)) :
    val_main_v28 (F := Ideal) x0 x1
      = Cert.Spec.tail bcast_S_S8192 reducesTo_S8192_S_d0 h_S_ (Cert.Spec.posV x0 x1) (Cert.Spec.negV x0 x1) (Cert.Spec.maxNegV x0 x1) := by
  rw [v28_eq_tail, v4_eq, v10_eq, v14_eq]

end Cert.ReferenceIdeal.RefValue

end
-- ==== Proof.Finite.lean ====
/-
  The precondition, read back: every entry of the two input matrices is a real number.

  The precondition says that `|x| < +∞` holds at every entry of both matrices (two `all` reductions joined by `and`).
  On the extended reals `|x| = max x (−x)` is below `⊤` exactly when `x` is neither `⊥` nor `⊤`.
-/
import proofs.«124568_j35905926594960_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton Cert.Pre_finite_inputs.S_.Idx := ⟨fun a b => funext fun d => d.elim0⟩

/-- The f32 word of plus infinity. -/
theorem top_f32 : Ideal.ofBits .f32 0x7F800000#32 = ⊤ := by simp [Ideal.ofBits, Ideal.ieee]

/-- An extended real whose absolute value is below `⊤` is a real. -/
theorem real_of_abs_lt (x : EReal) (h : max x (-x) < ⊤) : ∃ r : ℝ, x = (r : EReal) := by
  induction x using EReal.rec with
  | bot => exact absurd h (by simp)
  | top => exact absurd h (by simp)
  | coe r => exact ⟨r, rfl⟩

/-- A comparison bit that is one says the comparison holds. -/
theorem olt_of_bit (a b : EReal) (h : Ideal.cmp .olt a b = 1#1) : a < b := by
  unfold Ideal.cmp at h
  by_contra hn
  simp [hn] at h

variable [Cert.Pre_finite_inputs.Facts]

/-- Under the precondition both matrices hold reals only. -/
theorem finite_of_pre (a b : FVec Ideal S8192x256 .f32)
    (h : Cert.Pre_finite_inputs.fn (F := Ideal) a b = fun _ => 1#1) :
    (∀ i, ∃ r : ℝ, a i = (r : EReal)) ∧ (∀ i, ∃ r : ℝ, b i = (r : EReal)) := by
  have e := congrFun h ValueIdx.ix0
  dsimp only [Cert.Pre_finite_inputs.fn] at e
  obtain ⟨e1, e2⟩ := IntOp.andi_eq_one.1 e
  refine ⟨fun i => ?_, fun i => ?_⟩
  · have hi := Host.reduce_andi_all _ _ _ _ _ e1 i
    have hlt : max (a i) (-(a i)) < Ideal.ofBits .f32 0x7F800000#32 := olt_of_bit _ _ hi
    rw [top_f32] at hlt
    exact real_of_abs_lt _ hlt
  · have hi := Host.reduce_andi_all _ _ _ _ _ e2 i
    have hlt : max (b i) (-(b i)) < Ideal.ofBits .f32 0x7F800000#32 := olt_of_bit _ _ hi
    rw [top_f32] at hlt
    exact real_of_abs_lt _ hlt

end Cert.Finite

end
-- ==== Proof.lean ====
/-
  Two programs compute a contrastive loss from two 8192 × 256 matrices: with `sim = A · Bᵀ`, per row the maximum `pos`, the
  sum `neg` of the entries strictly below the maximum and the number of such entries, then the mean of `min (neg, 30) − pos`
  plus the mean of `max (pos − neg / maxcount + 1, 0)`, `maxcount` the largest count over the rows.

  The reference forms the whole similarity matrix, masks it by `sim < pos`, and sums the mask as integers. The kernel
  never forms the matrix: it streams each row block through eight column tiles keeping a running maximum, a running sum
  and a running count of the entries equal to the running maximum (a larger tile maximum resets the count, a tie adds to
  it), and ends with `neg = sum − count · max` and `8192 − count`. On the extended reals, for FINITE inputs — which the
  precondition gives, and the cancellation `sum − count · max` needs — the two agree row by row: every entry of a row is
  either below the row's maximum or equal to it. The closing scalar is the same chain of host operations in both
  programs, applied to equal inputs. The ideal pass rewrote nothing, so `preserves` is trivial; the frames are the
  generated frame certificates and the reference's generated run.
-/
import proofs.«124568_j35905926594960_1_alg».proof.Defs
import proofs.«124568_j35905926594960_1_alg».proof.Proof.Gen.Kernel
import proofs.«124568_j35905926594960_1_alg».proof.Proof.Gen.Kernel.Skeleton
import proofs.«124568_j35905926594960_1_alg».proof.Proof.Gen.Kernel.Launch
import proofs.«124568_j35905926594960_1_alg».proof.Proof.Gen.Kernel.Points
import proofs.«124568_j35905926594960_1_alg».proof.Proof.Gen.Kernel.Frame
import proofs.«124568_j35905926594960_1_alg».proof.Proof.Gen.KernelIdeal
import proofs.«124568_j35905926594960_1_alg».proof.Proof.Gen.KernelIdeal.Skeleton
import proofs.«124568_j35905926594960_1_alg».proof.Proof.Gen.KernelIdeal.Launch
import proofs.«124568_j35905926594960_1_alg».proof.Proof.Gen.KernelIdeal.Points
import proofs.«124568_j35905926594960_1_alg».proof.Proof.Gen.KernelIdeal.Frame
import proofs.«124568_j35905926594960_1_alg».proof.Proof.Gen.ReferenceIdeal
import proofs.«124568_j35905926594960_1_alg».proof.Proof.Gen.ReferenceIdeal.Run
import proofs.«124568_j35905926594960_1_alg».proof.Proof.Gen.ReferenceIdeal.Read
import proofs.«124568_j35905926594960_1_alg».proof.Proof.Gen.Pre_finite_inputs
import proofs.«124568_j35905926594960_1_alg».proof.Proof.KRun
import proofs.«124568_j35905926594960_1_alg».proof.Proof.RefSide
import proofs.«124568_j35905926594960_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end at the closing scalar of the row maxima, the masked row sums and the largest count of the SAME two
    matrices: the kernel's by its streamed statistics (finite entries, from the precondition), the reference's by its
    masked whole-matrix reductions. -/
theorem algebraic : Cert.algebraic_KernelIdeal_ReferenceIdeal := by
  intro m ρ m' ρ' hpre hagree
  have hfin := fun c : Dev Cert.KernelIdeal.nD => Cert.Finite.finite_of_pre _ _ (hpre c)
  refine ⟨_, Cert.KernelIdeal.Run.run m ρ (fun c => (hfin c).1) (fun c => (hfin c).2), ?_⟩
  refine (θ_run Cert.ReferenceIdeal.defs _ _).mono (fun _ h c => ⟨?_, (h c).2.1, (h c).2.2⟩)
    (Cert.ReferenceIdeal.Value.run (F := Ideal) m' ρ')
  rw [(h c).1, Cert.ReferenceIdeal.Read.val_main_v28_eq, (hagree c).1, (hagree c).2,
    Cert.ReferenceIdeal.RefValue.result_eq _ _ (hfin c).1 (hfin c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
